-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x32 : Shape := ⟨4, ![8, 256, 256, 32]⟩
abbrev S8x4096x2 : Shape := ⟨3, ![8, 4096, 2]⟩
abbrev S875x256 : Shape := ⟨2, ![875, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S8x256x256x32 : S_.BroadcastsInDim S8x256x256x32 (![] : Fin 0 → Fin S8x256x256x32.rank)
  reducesTo_S8x256x256x32_S_d0_1_2_3 : S8x256x256x32.ReducesTo [0, 1, 2, 3] S_
  h_S_ : 0 < S_.numel
  bcast_S_S8x4096x2 : S_.BroadcastsInDim S8x4096x2 (![] : Fin 0 → Fin S8x4096x2.rank)
  reducesTo_S8x4096x2_S_d0_1_2 : S8x4096x2.ReducesTo [0, 1, 2] S_
  bcast_S_S875x256 : S_.BroadcastsInDim S875x256 (![] : Fin 0 → Fin S875x256.rank)
  reducesTo_S875x256_S_d0_1 : S875x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S256x64 .f32) (main_arg5 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S8x256x256x32 .f32) (main_arg1 : FVec F S8x4096x2 .f32) (main_arg2 : FVec F S875x256 .f32) (main_arg3 : FVec F S256 .f32) (main_arg4 : FVec F S256x64 .f32) (main_arg5 : FVec F S64 .f32) : IVec S_ 1 :=
  let main_v0 : FVec F S8x256x256x32 .f32 := Host.absf main_arg0
  let main_cst : FVec F S_ .f32 := constant S_ .f32 0x7F800000#32
  let main_v1 : FVec F S8x256x256x32 .f32 := broadcastInDim S8x256x256x32 ![] bcast_S_S8x256x256x32 main_cst
  let main_v2 : IVec S8x256x256x32 1 := cmpf .olt main_v0 main_v1
  let main_c : IVec S_ 1 := constantI S_ 1 1#1
  let main_v3 : IVec S_ 1 := (fun x v => Host.reduce IntOp.andi x v reducesTo_S8x256x256x32_S_d0_1_2_3 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  let main_v9 : FVec F S875x256 .f32 := Host.absf main_arg2
  let main_cst_2 : FVec F S_ .f32 := constant S_ .f32 0x7F800000#32
  let main_v10 : FVec F S875x256 .f32 := broadcastInDim S875x256 ![] bcast_S_S875x256 main_cst_2
  let main_v11 : IVec S875x256 1 := cmpf .olt main_v9 main_v10
  let main_c_3 : IVec S_ 1 := constantI S_ 1 1#1
  let main_v12 : IVec S_ 1 := (fun x v => Host.reduce IntOp.andi x v reducesTo_S875x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8x256x256x32 : Shape := ⟨4, ![8, 256, 256, 32]⟩
abbrev S8x4096x2 : Shape := ⟨3, ![8, 4096, 2]⟩
abbrev S875x256 : Shape := ⟨2, ![875, 256]⟩
abbrev S256 : Shape := ⟨1, ![256]⟩
abbrev S256x64 : Shape := ⟨2, ![256, 64]⟩
abbrev S64 : Shape := ⟨1, ![64]⟩
abbrev S2 : Shape := ⟨1, ![2]⟩
abbrev S_ : Shape := ⟨0, ![]⟩
abbrev S1x1x2 : Shape := ⟨3, ![1, 1, 2]⟩
abbrev S8x260x260x32 : Shape := ⟨4, ![8, 260, 260, 32]⟩
abbrev S8x67600x32 : Shape := ⟨3, ![8, 67600, 32]⟩
abbrev S5 : Shape := ⟨1, ![5]⟩
abbrev S5x5 : Shape := ⟨2, ![5, 5]⟩
abbrev S5x5x1 : Shape := ⟨3, ![5, 5, 1]⟩
abbrev S5x5x2 : Shape := ⟨3, ![5, 5, 2]⟩
abbrev S25x2 : Shape := ⟨2, ![25, 2]⟩
abbrev S25x1 : Shape := ⟨2, ![25, 1]⟩
abbrev S25 : Shape := ⟨1, ![25]⟩
abbrev S8x4096x1 : Shape := ⟨3, ![8, 4096, 1]⟩
abbrev S8x4096 : Shape := ⟨2, ![8, 4096]⟩
abbrev S1x1x25 : Shape := ⟨3, ![1, 1, 25]⟩
abbrev S8x4096x25 : Shape := ⟨3, ![8, 4096, 25]⟩
abbrev S8x102400 : Shape := ⟨2, ![8, 102400]⟩
abbrev S8x102400x1 : Shape := ⟨3, ![8, 102400, 1]⟩
abbrev S1 : Shape := ⟨1, ![1]⟩
abbrev S1x1x1 : Shape := ⟨3, ![1, 1, 1]⟩
abbrev S8x102400x32 : Shape := ⟨3, ![8, 102400, 32]⟩
abbrev S32768x5x5x32 : Shape := ⟨4, ![32768, 5, 5, 32]⟩
abbrev S1x5x5x2 : Shape := ⟨4, ![1, 5, 5, 2]⟩
abbrev S1x1x1x2 : Shape := ⟨4, ![1, 1, 1, 2]⟩
abbrev S32768x1x1x2 : Shape := ⟨4, ![32768, 1, 1, 2]⟩
abbrev S32768x5x5x2 : Shape := ⟨4, ![32768, 5, 5, 2]⟩
abbrev S32768x5x5 : Shape := ⟨3, ![32768, 5, 5]⟩
abbrev S32768x5x5x1 : Shape := ⟨4, ![32768, 5, 5, 1]⟩
abbrev S32768x5x5x35 : Shape := ⟨4, ![32768, 5, 5, 35]⟩
abbrev S32768x875 : Shape := ⟨2, ![32768, 875]⟩
abbrev S32768x64 : Shape := ⟨2, ![32768, 64]⟩
abbrev S2048x875 : Shape := ⟨2, ![2048, 875]⟩
abbrev S2048x64 : Shape := ⟨2, ![2048, 64]⟩
abbrev S2048x256 : Shape := ⟨2, ![2048, 256]⟩
abbrev S1x256 : Shape := ⟨2, ![1, 256]⟩
abbrev S1x64 : Shape := ⟨2, ![1, 64]⟩

abbrev nBuf : Space → Nat
  | .hbm => 109
  | .vmem => 8
  | .smem => 0
  | _ => 0

abbrev bufTy : (tb : Table) → Fin (tcTables nBuf tb) → BufTy
  | .hbm, ⟨0, _⟩ => ⟨S8x256x256x32, .f32⟩
  | .hbm, ⟨1, _⟩ => ⟨S8x4096x2, .f32⟩
  | .hbm, ⟨2, _⟩ => ⟨S875x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2, .f32⟩
  | .hbm, ⟨7, _⟩ => ⟨S_, .f32⟩
  | .hbm, ⟨8, _⟩ => ⟨S2, .f32⟩
  | .hbm, ⟨9, _⟩ => ⟨S2, .f32⟩
  | .hbm, ⟨10, _⟩ => ⟨S1x1x2, .f32⟩
  | .hbm, ⟨11, _⟩ => ⟨S8x4096x2, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S1x1x2, .f32⟩
  | .hbm, ⟨18, _⟩ => ⟨S8x4096x2, .f32⟩
  | .hbm, ⟨19, _⟩ => ⟨S8x4096x2, .f32⟩
  | .hbm, ⟨20, _⟩ => ⟨S8x4096x2, .i32⟩
  | .hbm, ⟨21, _⟩ => ⟨S_, .i32⟩
  | .hbm, ⟨22, _⟩ => ⟨S_, .f32⟩
  | .hbm, ⟨23, _⟩ => ⟨S8x260x260x32, .f32⟩
  | .hbm, ⟨24, _⟩ => ⟨S8x67600x32, .f32⟩
  | .hbm, ⟨25, _⟩ => ⟨S5, .i32⟩
  | .hbm, ⟨26, _⟩ => ⟨S_, .i32⟩
  | .hbm, ⟨27, _⟩ => ⟨S5, .i32⟩
  | .hbm, ⟨28, _⟩ => ⟨S5, .i32⟩
  | .hbm, ⟨29, _⟩ => ⟨S5x5, .i32⟩
  | .hbm, ⟨30, _⟩ => ⟨S5x5, .i32⟩
  | .hbm, ⟨31, _⟩ => ⟨S5x5x1, .i32⟩
  | .hbm, ⟨32, _⟩ => ⟨S5x5x1, .i32⟩
  | .hbm, ⟨33, _⟩ => ⟨S5x5x2, .i32⟩
  | .hbm, ⟨34, _⟩ => ⟨S25x2, .i32⟩
  | .hbm, ⟨35, _⟩ => ⟨S25x1, .i32⟩
  | .hbm, ⟨36, _⟩ => ⟨S25, .i32⟩
  | .hbm, ⟨37, _⟩ => ⟨S25x1, .i32⟩
  | .hbm, ⟨38, _⟩ => ⟨S25, .i32⟩
  | .hbm, ⟨39, _⟩ => ⟨S_, .i32⟩
  | .hbm, ⟨40, _⟩ => ⟨S25, .i32⟩
  | .hbm, ⟨41, _⟩ => ⟨S25, .i32⟩
  | .hbm, ⟨42, _⟩ => ⟨S25, .i32⟩
  | .hbm, ⟨43, _⟩ => ⟨S_, .i32⟩
  | .hbm, ⟨44, _⟩ => ⟨S8x4096x2, .i32⟩
  | .hbm, ⟨45, _⟩ => ⟨S8x4096x2, .i32⟩
  | .hbm, ⟨46, _⟩ => ⟨S8x4096x1, .i32⟩
  | .hbm, ⟨47, _⟩ => ⟨S8x4096, .i32⟩
  | .hbm, ⟨48, _⟩ => ⟨S8x4096x1, .i32⟩
  | .hbm, ⟨49, _⟩ => ⟨S8x4096, .i32⟩
  | .hbm, ⟨50, _⟩ => ⟨S_, .i32⟩
  | .hbm, ⟨51, _⟩ => ⟨S8x4096, .i32⟩
  | .hbm, ⟨52, _⟩ => ⟨S8x4096, .i32⟩
  | .hbm, ⟨53, _⟩ => ⟨S8x4096, .i32⟩
  | .hbm, ⟨54, _⟩ => ⟨S8x4096x1, .i32⟩
  | .hbm, ⟨55, _⟩ => ⟨S1x1x25, .i32⟩
  | .hbm, ⟨56, _⟩ => ⟨S8x4096x25, .i32⟩
  | .hbm, ⟨57, _⟩ => ⟨S8x4096x25, .i32⟩
  | .hbm, ⟨58, _⟩ => ⟨S8x4096x25, .i32⟩
  | .hbm, ⟨59, _⟩ => ⟨S8x102400, .i32⟩
  | .hbm, ⟨60, _⟩ => ⟨S8x102400x1, .i32⟩
  | .hbm, ⟨61, _⟩ => ⟨S_, .i32⟩
  | .hbm, ⟨62, _⟩ => ⟨S8x102400x1, .i32⟩
  | .hbm, ⟨63, _⟩ => ⟨S8x102400x1, .i1⟩
  | .hbm, ⟨64, _⟩ => ⟨S_, .i32⟩
  | .hbm, ⟨65, _⟩ => ⟨S8x102400x1, .i32⟩
  | .hbm, ⟨66, _⟩ => ⟨S8x102400x1, .i32⟩
  | .hbm, ⟨67, _⟩ => ⟨S8x102400x1, .i32⟩
  | .hbm, ⟨68, _⟩ => ⟨S1, .i32⟩
  | .hbm, ⟨69, _⟩ => ⟨S_, .i32⟩
  | .hbm, ⟨70, _⟩ => ⟨S8x102400x1, .i32⟩
  | .hbm, ⟨71, _⟩ => ⟨S8x102400x1, .i1⟩
  | .hbm, ⟨72, _⟩ => ⟨S1x1x1, .i32⟩
  | .hbm, ⟨73, _⟩ => ⟨S8x102400x1, .i32⟩
  | .hbm, ⟨74, _⟩ => ⟨S8x102400x1, .i1⟩
  | .hbm, ⟨75, _⟩ => ⟨S8x102400x1, .i1⟩
  | .hbm, ⟨76, _⟩ => ⟨S_, .i1⟩
  | .hbm, ⟨77, _⟩ => ⟨S8x102400, .i1⟩
  | .hbm, ⟨78, _⟩ => ⟨S8x102400x32, .f32⟩
  | .hbm, ⟨79, _⟩ => ⟨S8x102400x32, .i1⟩
  | .hbm, ⟨80, _⟩ => ⟨S_, .f32⟩
  | .hbm, ⟨81, _⟩ => ⟨S8x102400x32, .f32⟩
  | .hbm, ⟨82, _⟩ => ⟨S8x102400x32, .f32⟩
  | .hbm, ⟨83, _⟩ => ⟨S32768x5x5x32, .f32⟩
  | .hbm, ⟨84, _⟩ => ⟨S25x2, .f32⟩
  | .hbm, ⟨85, _⟩ => ⟨S1x5x5x2, .f32⟩
  | .hbm, ⟨86, _⟩ => ⟨S1x1x1x2, .f32⟩
  | .hbm, ⟨87, _⟩ => ⟨S1x5x5x2, .f32⟩
  | .hbm, ⟨88, _⟩ => ⟨S1x5x5x2, .f32⟩
  | .hbm, ⟨89, _⟩ => ⟨S32768x1x1x2, .f32⟩
  | .hbm, ⟨90, _⟩ => ⟨S32768x5x5x2, .f32⟩
  | .hbm, ⟨91, _⟩ => ⟨S32768x5x5x2, .f32⟩
  | .hbm, ⟨92, _⟩ => ⟨S32768x5x5x2, .f32⟩
  | .hbm, ⟨93, _⟩ => ⟨S32768x1x1x2, .f32⟩
  | .hbm, ⟨94, _⟩ => ⟨S32768x5x5x2, .f32⟩
  | .hbm, ⟨95, _⟩ => ⟨S32768x5x5x2, .f32⟩
  | .hbm, ⟨96, _⟩ => ⟨S32768x5x5x2, .f32⟩
  | .hbm, ⟨97, _⟩ => ⟨S_, .f32⟩
  | .hbm, ⟨98, _⟩ => ⟨S32768x5x5, .f32⟩
  | .hbm, ⟨99, _⟩ => ⟨S32768x5x5x1, .f32⟩
  | .hbm, ⟨100, _⟩ => ⟨S32768x5x5x1, .f32⟩
  | .hbm, ⟨101, _⟩ => ⟨S_, .f32⟩
  | .hbm, ⟨102, _⟩ => ⟨S32768x5x5x1, .f32⟩
  | .hbm, ⟨103, _⟩ => ⟨S32768x5x5x1, .f32⟩
  | .hbm, ⟨104, _⟩ => ⟨S32768x5x5x2, .f32⟩
  | .hbm, ⟨105, _⟩ => ⟨S32768x5x5x2, .f32⟩
  | .hbm, ⟨106, _⟩ => ⟨S32768x5x5x35, .f32⟩
  | .hbm, ⟨107, _⟩ => ⟨S32768x875, .f32⟩
  | .hbm, ⟨108, _⟩ => ⟨S32768x64, .f32⟩
  | .local _ .vmem, ⟨0, _⟩ => ⟨S2048x875, .f32⟩
  | .local _ .vmem, ⟨1, _⟩ => ⟨S2048x875, .f32⟩
  | .local _ .vmem, ⟨2, _⟩ => ⟨S875x256, .f32⟩
  | .local _ .vmem, ⟨3, _⟩ => ⟨S256, .f32⟩
  | .local _ .vmem, ⟨4, _⟩ => ⟨S256x64, .f32⟩
  | .local _ .vmem, ⟨5, _⟩ => ⟨S64, .f32⟩
  | .local _ .vmem, ⟨6, _⟩ => ⟨S2048x64, .f32⟩
  | .local _ .vmem, ⟨7, _⟩ => ⟨S2048x64, .f32⟩
  | _, _ => ⟨S8x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_c_2 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_c_3 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v60 : Ref sig .tc := ⟨.hbm, 100, rfl⟩
abbrev main_cst_6 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x875 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S875x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2 : S_.BroadcastsInDim S2 (![] : Fin 0 → Fin S2.rank)
  bcast_S2_S1x1x2_2 : S2.BroadcastsInDim S1x1x2 (![2] : Fin 1 → Fin S1x1x2.rank)
  bcast_S1x1x2_S8x4096x2_0_1_2 : S1x1x2.BroadcastsInDim S8x4096x2 (![0, 1, 2] : Fin 3 → Fin S8x4096x2.rank)
  bcast_S_S8x4096x2 : S_.BroadcastsInDim S8x4096x2 (![] : Fin 0 → Fin S8x4096x2.rank)
  pads_S8x256x256x32_S8x260x260x32_000_220_220_000 : S8x256x256x32.Pads (![0, 2, 2, 0] : Fin 4 → Nat) ![0, 2, 2, 0] ![0, 0, 0, 0] S8x260x260x32
  h_S_ : 0 < S_.numel
  shapeCasts_S8x260x260x32_S8x67600x32 : S8x260x260x32.ShapeCasts S8x67600x32
  bcast_S_S5 : S_.BroadcastsInDim S5 (![] : Fin 0 → Fin S5.rank)
  bcast_S5_S5x5_0 : S5.BroadcastsInDim S5x5 (![0] : Fin 1 → Fin S5x5.rank)
  bcast_S5_S5x5_1 : S5.BroadcastsInDim S5x5 (![1] : Fin 1 → Fin S5x5.rank)
  bcast_S5x5_S5x5x1_0_1 : S5x5.BroadcastsInDim S5x5x1 (![0, 1] : Fin 2 → Fin S5x5x1.rank)
  concatenates_S5x5x1_S5x5x1_S5x5x2_d2 : Shape.Concatenates [S5x5x1, S5x5x1] S5x5x2 2
  shapeCasts_S5x5x2_S25x2 : S5x5x2.ShapeCasts S25x2
  slices_S25x2_S25x1_0_0 : S25x2.Slices ![0, 0] S25x1
  shapeCasts_S25x1_S25 : S25x1.ShapeCasts S25
  slices_S25x2_S25x1_0_1 : S25x2.Slices ![0, 1] S25x1
  bcast_S_S25 : S_.BroadcastsInDim S25 (![] : Fin 0 → Fin S25.rank)
  slices_S8x4096x2_S8x4096x1_0_0_0 : S8x4096x2.Slices ![0, 0, 0] S8x4096x1
  shapeCasts_S8x4096x1_S8x4096 : S8x4096x1.ShapeCasts S8x4096
  slices_S8x4096x2_S8x4096x1_0_0_1 : S8x4096x2.Slices ![0, 0, 1] S8x4096x1
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S25_S1x1x25_2 : S25.BroadcastsInDim S1x1x25 (![2] : Fin 1 → Fin S1x1x25.rank)
  bcast_S8x4096x1_S8x4096x25_0_1_2 : S8x4096x1.BroadcastsInDim S8x4096x25 (![0, 1, 2] : Fin 3 → Fin S8x4096x25.rank)
  bcast_S1x1x25_S8x4096x25_0_1_2 : S1x1x25.BroadcastsInDim S8x4096x25 (![0, 1, 2] : Fin 3 → Fin S8x4096x25.rank)
  shapeCasts_S8x4096x25_S8x102400 : S8x4096x25.ShapeCasts S8x102400
  bcast_S8x102400_S8x102400x1_0_1 : S8x102400.BroadcastsInDim S8x102400x1 (![0, 1] : Fin 2 → Fin S8x102400x1.rank)
  bcast_S_S8x102400x1 : S_.BroadcastsInDim S8x102400x1 (![] : Fin 0 → Fin S8x102400x1.rank)
  bcast_S1_S1x1x1_2 : S1.BroadcastsInDim S1x1x1 (![2] : Fin 1 → Fin S1x1x1.rank)
  bcast_S1x1x1_S8x102400x1_0_1_2 : S1x1x1.BroadcastsInDim S8x102400x1 (![0, 1, 2] : Fin 3 → Fin S8x102400x1.rank)
  reducesTo_S8x102400x1_S8x102400_d2 : S8x102400x1.ReducesTo [2] S8x102400
  bcast_S8x102400_S8x102400x32_0_1 : S8x102400.BroadcastsInDim S8x102400x32 (![0, 1] : Fin 2 → Fin S8x102400x32.rank)
  bcast_S_S8x102400x32 : S_.BroadcastsInDim S8x102400x32 (![] : Fin 0 → Fin S8x102400x32.rank)
  shapeCasts_S8x102400x32_S32768x5x5x32 : S8x102400x32.ShapeCasts S32768x5x5x32
  shapeCasts_S25x2_S1x5x5x2 : S25x2.ShapeCasts S1x5x5x2
  bcast_S2_S1x1x1x2_3 : S2.BroadcastsInDim S1x1x1x2 (![3] : Fin 1 → Fin S1x1x1x2.rank)
  bcast_S1x1x1x2_S1x5x5x2_0_1_2_3 : S1x1x1x2.BroadcastsInDim S1x5x5x2 (![0, 1, 2, 3] : Fin 4 → Fin S1x5x5x2.rank)
  shapeCasts_S8x4096x2_S32768x1x1x2 : S8x4096x2.ShapeCasts S32768x1x1x2
  bcast_S1x5x5x2_S32768x5x5x2_0_1_2_3 : S1x5x5x2.BroadcastsInDim S32768x5x5x2 (![0, 1, 2, 3] : Fin 4 → Fin S32768x5x5x2.rank)
  bcast_S32768x1x1x2_S32768x5x5x2_0_1_2_3 : S32768x1x1x2.BroadcastsInDim S32768x5x5x2 (![0, 1, 2, 3] : Fin 4 → Fin S32768x5x5x2.rank)
  reducesTo_S32768x5x5x2_S32768x5x5_d3 : S32768x5x5x2.ReducesTo [3] S32768x5x5
  bcast_S32768x5x5_S32768x5x5x1_0_1_2 : S32768x5x5.BroadcastsInDim S32768x5x5x1 (![0, 1, 2] : Fin 3 → Fin S32768x5x5x1.rank)
  bcast_S_S32768x5x5x1 : S_.BroadcastsInDim S32768x5x5x1 (![] : Fin 0 → Fin S32768x5x5x1.rank)
  bcast_S32768x5x5x1_S32768x5x5x2_0_1_2_3 : S32768x5x5x1.BroadcastsInDim S32768x5x5x2 (![0, 1, 2, 3] : Fin 4 → Fin S32768x5x5x2.rank)
  concatenates_S32768x5x5x32_S32768x5x5x2_S32768x5x5x1_S32768x5x5x35_d3 : Shape.Concatenates [S32768x5x5x32, S32768x5x5x2, S32768x5x5x1] S32768x5x5x35 3
  shapeCasts_S32768x5x5x35_S32768x875 : S32768x5x5x35.ShapeCasts S32768x875
  inb_S2048x875_S2048x875_0_0 : ∀ a, (![0, 0] : Fin 2 → Nat) a + S2048x875.size a ≤ S2048x875.size a
  h_S2048x875 : 0 < S2048x875.numel
  shapeCasts_S2048x875_S2048x875 : S2048x875.ShapeCasts S2048x875
  bitsLt_bf16_f32 : FTy.bits .bf16 < FTy.bits .f32
  inb_S875x256_S875x256_0_0 : ∀ a, (![0, 0] : Fin 2 → Nat) a + S875x256.size a ≤ S875x256.size a
  h_S875x256 : 0 < S875x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  gather_S8x67600x32_S8x102400x1_S8x102400x32_2_1_0_0_1_2_1132_wf : GatherDims.WF S8x67600x32 S8x102400x1 S8x102400x32 [2] [1] [0] [1] [0] 2 ![1, 1, 32]
  dot_S2048x875_S875x256_S2048x256_1_0_0_1_n_n_wf : DotDims.WF S2048x875 S875x256 S2048x256 [1] [0] [0] [1] [] []
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x875.size a ≤ S32768x875.size a
  hwx0_0 : ∀ i : grid0.Coords, EltTy.bits .f32 = 32 ∨ (Rect.block (s := S32768x875) S2048x875.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S875x256.size a ≤ S875x256.size a
  hwx0_1 : ∀ i : grid0.Coords, EltTy.bits .f32 = 32 ∨ (Rect.block (s := S875x256) S875x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S32768x64.size a
  hwx0_5 : ∀ i : grid0.Coords, EltTy.bits .f32 = 32 ∨ (Rect.block (s := S32768x64) S2048x64.size (cc0_transform_5 i) (hinb0_5 i)).WholeWords (EltTy.packing .f32)

variable [Facts₀]

def gather_S8x67600x32_S8x102400x1_S8x102400x32_2_1_0_0_1_2_1132 : GatherDims S8x67600x32 S8x102400x1 S8x102400x32 where
  offsetDims := [2]
  collapsedSliceDims := [1]
  operandBatchingDims := [0]
  startIndicesBatchingDims := [0]
  startIndexMap := [1]
  indexVectorDim := 2
  sliceSizes := ![1, 1, 32]
  wf := gather_S8x67600x32_S8x102400x1_S8x102400x32_2_1_0_0_1_2_1132_wf
def dot_S2048x875_S875x256_S2048x256_1_0_0_1_n_n : DotDims S2048x875 S875x256 S2048x256 where
  lhsContracting := [1]
  rhsContracting := [0]
  lhsNonContracting := [0]
  rhsNonContracting := [1]
  lhsBatch := []
  rhsBatch := []
  wf := dot_S2048x875_S875x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_v66) S2048x875.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S875x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x256x32 : Shape := ⟨4, ![8, 256, 256, 32]⟩
abbrev S8x4096x2 : Shape := ⟨3, ![8, 4096, 2]⟩
abbrev S875x256 : Shape := ⟨2, ![875, 256]⟩
abbrev S256 : Shape := ⟨1, ![256]⟩
abbrev S256x64 : Shape := ⟨2, ![256, 64]⟩
abbrev S64 : Shape := ⟨1, ![64]⟩
abbrev S2 : Shape := ⟨1, ![2]⟩
abbrev S_ : Shape := ⟨0, ![]⟩
abbrev S1x1x2 : Shape := ⟨3, ![1, 1, 2]⟩
abbrev S8x260x260x32 : Shape := ⟨4, ![8, 260, 260, 32]⟩
abbrev S8x67600x32 : Shape := ⟨3, ![8, 67600, 32]⟩
abbrev S5 : Shape := ⟨1, ![5]⟩
abbrev S5x5 : Shape := ⟨2, ![5, 5]⟩
abbrev S5x5x1 : Shape := ⟨3, ![5, 5, 1]⟩
abbrev S5x5x2 : Shape := ⟨3, ![5, 5, 2]⟩
abbrev S25x2 : Shape := ⟨2, ![25, 2]⟩
abbrev S25x1 : Shape := ⟨2, ![25, 1]⟩
abbrev S25 : Shape := ⟨1, ![25]⟩
abbrev S8x4096x1 : Shape := ⟨3, ![8, 4096, 1]⟩
abbrev S8x4096 : Shape := ⟨2, ![8, 4096]⟩
abbrev S1x1x25 : Shape := ⟨3, ![1, 1, 25]⟩
abbrev S8x4096x25 : Shape := ⟨3, ![8, 4096, 25]⟩
abbrev S8x102400 : Shape := ⟨2, ![8, 102400]⟩
abbrev S8x102400x1 : Shape := ⟨3, ![8, 102400, 1]⟩
abbrev S1 : Shape := ⟨1, ![1]⟩
abbrev S1x1x1 : Shape := ⟨3, ![1, 1, 1]⟩
abbrev S8x102400x32 : Shape := ⟨3, ![8, 102400, 32]⟩
abbrev S32768x5x5x32 : Shape := ⟨4, ![32768, 5, 5, 32]⟩
abbrev S1x5x5x2 : Shape := ⟨4, ![1, 5, 5, 2]⟩
abbrev S1x1x1x2 : Shape := ⟨4, ![1, 1, 1, 2]⟩
abbrev S32768x1x1x2 : Shape := ⟨4, ![32768, 1, 1, 2]⟩
abbrev S32768x5x5x2 : Shape := ⟨4, ![32768, 5, 5, 2]⟩
abbrev S32768x5x5 : Shape := ⟨3, ![32768, 5, 5]⟩
abbrev S32768x5x5x1 : Shape := ⟨4, ![32768, 5, 5, 1]⟩
abbrev S32768x5x5x35 : Shape := ⟨4, ![32768, 5, 5, 35]⟩
abbrev S32768x875 : Shape := ⟨2, ![32768, 875]⟩
abbrev S32768x256 : Shape := ⟨2, ![32768, 256]⟩
abbrev S1x256 : Shape := ⟨2, ![1, 256]⟩
abbrev S32768x64 : Shape := ⟨2, ![32768, 64]⟩
abbrev S1x64 : Shape := ⟨2, ![1, 64]⟩

abbrev nBuf : Space → Nat
  | .hbm => 119
  | .vmem => 0
  | .smem => 0
  | _ => 0

abbrev bufTy : (tb : Table) → Fin (tcTables nBuf tb) → BufTy
  | .hbm, ⟨0, _⟩ => ⟨S8x256x256x32, .f32⟩
  | .hbm, ⟨1, _⟩ => ⟨S8x4096x2, .f32⟩
  | .hbm, ⟨2, _⟩ => ⟨S875x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S2, .f32⟩
  | .hbm, ⟨7, _⟩ => ⟨S_, .f32⟩
  | .hbm, ⟨8, _⟩ => ⟨S2, .f32⟩
  | .hbm, ⟨9, _⟩ => ⟨S2, .f32⟩
  | .hbm, ⟨10, _⟩ => ⟨S1x1x2, .f32⟩
  | .hbm, ⟨11, _⟩ => ⟨S8x4096x2, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S1x1x2, .f32⟩
  | .hbm, ⟨18, _⟩ => ⟨S8x4096x2, .f32⟩
  | .hbm, ⟨19, _⟩ => ⟨S8x4096x2, .f32⟩
  | .hbm, ⟨20, _⟩ => ⟨S8x4096x2, .i32⟩
  | .hbm, ⟨21, _⟩ => ⟨S_, .i32⟩
  | .hbm, ⟨22, _⟩ => ⟨S_, .f32⟩
  | .hbm, ⟨23, _⟩ => ⟨S8x260x260x32, .f32⟩
  | .hbm, ⟨24, _⟩ => ⟨S8x67600x32, .f32⟩
  | .hbm, ⟨25, _⟩ => ⟨S5, .i32⟩
  | .hbm, ⟨26, _⟩ => ⟨S_, .i32⟩
  | .hbm, ⟨27, _⟩ => ⟨S5, .i32⟩
  | .hbm, ⟨28, _⟩ => ⟨S5, .i32⟩
  | .hbm, ⟨29, _⟩ => ⟨S5x5, .i32⟩
  | .hbm, ⟨30, _⟩ => ⟨S5x5, .i32⟩
  | .hbm, ⟨31, _⟩ => ⟨S5x5x1, .i32⟩
  | .hbm, ⟨32, _⟩ => ⟨S5x5x1, .i32⟩
  | .hbm, ⟨33, _⟩ => ⟨S5x5x2, .i32⟩
  | .hbm, ⟨34, _⟩ => ⟨S25x2, .i32⟩
  | .hbm, ⟨35, _⟩ => ⟨S25x1, .i32⟩
  | .hbm, ⟨36, _⟩ => ⟨S25, .i32⟩
  | .hbm, ⟨37, _⟩ => ⟨S25x1, .i32⟩
  | .hbm, ⟨38, _⟩ => ⟨S25, .i32⟩
  | .hbm, ⟨39, _⟩ => ⟨S_, .i32⟩
  | .hbm, ⟨40, _⟩ => ⟨S25, .i32⟩
  | .hbm, ⟨41, _⟩ => ⟨S25, .i32⟩
  | .hbm, ⟨42, _⟩ => ⟨S25, .i32⟩
  | .hbm, ⟨43, _⟩ => ⟨S_, .i32⟩
  | .hbm, ⟨44, _⟩ => ⟨S8x4096x2, .i32⟩
  | .hbm, ⟨45, _⟩ => ⟨S8x4096x2, .i32⟩
  | .hbm, ⟨46, _⟩ => ⟨S8x4096x1, .i32⟩
  | .hbm, ⟨47, _⟩ => ⟨S8x4096, .i32⟩
  | .hbm, ⟨48, _⟩ => ⟨S8x4096x1, .i32⟩
  | .hbm, ⟨49, _⟩ => ⟨S8x4096, .i32⟩
  | .hbm, ⟨50, _⟩ => ⟨S_, .i32⟩
  | .hbm, ⟨51, _⟩ => ⟨S8x4096, .i32⟩
  | .hbm, ⟨52, _⟩ => ⟨S8x4096, .i32⟩
  | .hbm, ⟨53, _⟩ => ⟨S8x4096, .i32⟩
  | .hbm, ⟨54, _⟩ => ⟨S8x4096x1, .i32⟩
  | .hbm, ⟨55, _⟩ => ⟨S1x1x25, .i32⟩
  | .hbm, ⟨56, _⟩ => ⟨S8x4096x25, .i32⟩
  | .hbm, ⟨57, _⟩ => ⟨S8x4096x25, .i32⟩
  | .hbm, ⟨58, _⟩ => ⟨S8x4096x25, .i32⟩
  | .hbm, ⟨59, _⟩ => ⟨S8x102400, .i32⟩
  | .hbm, ⟨60, _⟩ => ⟨S8x102400x1, .i32⟩
  | .hbm, ⟨61, _⟩ => ⟨S_, .i32⟩
  | .hbm, ⟨62, _⟩ => ⟨S8x102400x1, .i32⟩
  | .hbm, ⟨63, _⟩ => ⟨S8x102400x1, .i1⟩
  | .hbm, ⟨64, _⟩ => ⟨S_, .i32⟩
  | .hbm, ⟨65, _⟩ => ⟨S8x102400x1, .i32⟩
  | .hbm, ⟨66, _⟩ => ⟨S8x102400x1, .i32⟩
  | .hbm, ⟨67, _⟩ => ⟨S8x102400x1, .i32⟩
  | .hbm, ⟨68, _⟩ => ⟨S1, .i32⟩
  | .hbm, ⟨69, _⟩ => ⟨S_, .i32⟩
  | .hbm, ⟨70, _⟩ => ⟨S8x102400x1, .i32⟩
  | .hbm, ⟨71, _⟩ => ⟨S8x102400x1, .i1⟩
  | .hbm, ⟨72, _⟩ => ⟨S1x1x1, .i32⟩
  | .hbm, ⟨73, _⟩ => ⟨S8x102400x1, .i32⟩
  | .hbm, ⟨74, _⟩ => ⟨S8x102400x1, .i1⟩
  | .hbm, ⟨75, _⟩ => ⟨S8x102400x1, .i1⟩
  | .hbm, ⟨76, _⟩ => ⟨S_, .i1⟩
  | .hbm, ⟨77, _⟩ => ⟨S8x102400, .i1⟩
  | .hbm, ⟨78, _⟩ => ⟨S8x102400x32, .f32⟩
  | .hbm, ⟨79, _⟩ => ⟨S8x102400x32, .i1⟩
  | .hbm, ⟨80, _⟩ => ⟨S_, .f32⟩
  | .hbm, ⟨81, _⟩ => ⟨S8x102400x32, .f32⟩
  | .hbm, ⟨82, _⟩ => ⟨S8x102400x32, .f32⟩
  | .hbm, ⟨83, _⟩ => ⟨S32768x5x5x32, .f32⟩
  | .hbm, ⟨84, _⟩ => ⟨S25x2, .f32⟩
  | .hbm, ⟨85, _⟩ => ⟨S1x5x5x2, .f32⟩
  | .hbm, ⟨86, _⟩ => ⟨S1x1x1x2, .f32⟩
  | .hbm, ⟨87, _⟩ => ⟨S1x5x5x2, .f32⟩
  | .hbm, ⟨88, _⟩ => ⟨S1x5x5x2, .f32⟩
  | .hbm, ⟨89, _⟩ => ⟨S32768x1x1x2, .f32⟩
  | .hbm, ⟨90, _⟩ => ⟨S32768x5x5x2, .f32⟩
  | .hbm, ⟨91, _⟩ => ⟨S32768x5x5x2, .f32⟩
  | .hbm, ⟨92, _⟩ => ⟨S32768x5x5x2, .f32⟩
  | .hbm, ⟨93, _⟩ => ⟨S32768x1x1x2, .f32⟩
  | .hbm, ⟨94, _⟩ => ⟨S32768x5x5x2, .f32⟩
  | .hbm, ⟨95, _⟩ => ⟨S32768x5x5x2, .f32⟩
  | .hbm, ⟨96, _⟩ => ⟨S32768x5x5x2, .f32⟩
  | .hbm, ⟨97, _⟩ => ⟨S_, .f32⟩
  | .hbm, ⟨98, _⟩ => ⟨S32768x5x5, .f32⟩
  | .hbm, ⟨99, _⟩ => ⟨S32768x5x5x1, .f32⟩
  | .hbm, ⟨100, _⟩ => ⟨S32768x5x5x1, .f32⟩
  | .hbm, ⟨101, _⟩ => ⟨S_, .f32⟩
  | .hbm, ⟨102, _⟩ => ⟨S32768x5x5x1, .f32⟩
  | .hbm, ⟨103, _⟩ => ⟨S32768x5x5x1, .f32⟩
  | .hbm, ⟨104, _⟩ => ⟨S32768x5x5x2, .f32⟩
  | .hbm, ⟨105, _⟩ => ⟨S32768x5x5x2, .f32⟩
  | .hbm, ⟨106, _⟩ => ⟨S32768x5x5x35, .f32⟩
  | .hbm, ⟨107, _⟩ => ⟨S32768x875, .f32⟩
  | .hbm, ⟨108, _⟩ => ⟨S32768x256, .f32⟩
  | .hbm, ⟨109, _⟩ => ⟨S1x256, .f32⟩
  | .hbm, ⟨110, _⟩ => ⟨S32768x256, .f32⟩
  | .hbm, ⟨111, _⟩ => ⟨S32768x256, .f32⟩
  | .hbm, ⟨112, _⟩ => ⟨S_, .f32⟩
  | .hbm, ⟨113, _⟩ => ⟨S32768x256, .f32⟩
  | .hbm, ⟨114, _⟩ => ⟨S32768x256, .f32⟩
  | .hbm, ⟨115, _⟩ => ⟨S32768x64, .f32⟩
  | .hbm, ⟨116, _⟩ => ⟨S1x64, .f32⟩
  | .hbm, ⟨117, _⟩ => ⟨S32768x64, .f32⟩
  | .hbm, ⟨118, _⟩ => ⟨S32768x64, .f32⟩
  | _, _ => ⟨S8x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_c_2 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_c_3 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_call2_v0 : Ref sig .tc := ⟨.hbm, 96, rfl⟩
abbrev main_call2_cst : Ref sig .tc := ⟨.hbm, 97, rfl⟩
abbrev main_call2_v1 : Ref sig .tc := ⟨.hbm, 98, rfl⟩
abbrev main_call2_v2 : Ref sig .tc := ⟨.hbm, 99, rfl⟩
abbrev main_v60 : Ref sig .tc := ⟨.hbm, 100, rfl⟩
abbrev main_cst_6 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_call3_cst : Ref sig .tc := ⟨.hbm, 112, rfl⟩
abbrev main_call3_v0 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  bcast_S_S2 : S_.BroadcastsInDim S2 (![] : Fin 0 → Fin S2.rank)
  bcast_S2_S1x1x2_2 : S2.BroadcastsInDim S1x1x2 (![2] : Fin 1 → Fin S1x1x2.rank)
  bcast_S1x1x2_S8x4096x2_0_1_2 : S1x1x2.BroadcastsInDim S8x4096x2 (![0, 1, 2] : Fin 3 → Fin S8x4096x2.rank)
  bcast_S_S8x4096x2 : S_.BroadcastsInDim S8x4096x2 (![] : Fin 0 → Fin S8x4096x2.rank)
  pads_S8x256x256x32_S8x260x260x32_000_220_220_000 : S8x256x256x32.Pads (![0, 2, 2, 0] : Fin 4 → Nat) ![0, 2, 2, 0] ![0, 0, 0, 0] S8x260x260x32
  h_S_ : 0 < S_.numel
  shapeCasts_S8x260x260x32_S8x67600x32 : S8x260x260x32.ShapeCasts S8x67600x32
  bcast_S_S5 : S_.BroadcastsInDim S5 (![] : Fin 0 → Fin S5.rank)
  bcast_S5_S5x5_0 : S5.BroadcastsInDim S5x5 (![0] : Fin 1 → Fin S5x5.rank)
  bcast_S5_S5x5_1 : S5.BroadcastsInDim S5x5 (![1] : Fin 1 → Fin S5x5.rank)
  bcast_S5x5_S5x5x1_0_1 : S5x5.BroadcastsInDim S5x5x1 (![0, 1] : Fin 2 → Fin S5x5x1.rank)
  concatenates_S5x5x1_S5x5x1_S5x5x2_d2 : Shape.Concatenates [S5x5x1, S5x5x1] S5x5x2 2
  shapeCasts_S5x5x2_S25x2 : S5x5x2.ShapeCasts S25x2
  slices_S25x2_S25x1_0_0 : S25x2.Slices ![0, 0] S25x1
  shapeCasts_S25x1_S25 : S25x1.ShapeCasts S25
  slices_S25x2_S25x1_0_1 : S25x2.Slices ![0, 1] S25x1
  bcast_S_S25 : S_.BroadcastsInDim S25 (![] : Fin 0 → Fin S25.rank)
  slices_S8x4096x2_S8x4096x1_0_0_0 : S8x4096x2.Slices ![0, 0, 0] S8x4096x1
  shapeCasts_S8x4096x1_S8x4096 : S8x4096x1.ShapeCasts S8x4096
  slices_S8x4096x2_S8x4096x1_0_0_1 : S8x4096x2.Slices ![0, 0, 1] S8x4096x1
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S25_S1x1x25_2 : S25.BroadcastsInDim S1x1x25 (![2] : Fin 1 → Fin S1x1x25.rank)
  bcast_S8x4096x1_S8x4096x25_0_1_2 : S8x4096x1.BroadcastsInDim S8x4096x25 (![0, 1, 2] : Fin 3 → Fin S8x4096x25.rank)
  bcast_S1x1x25_S8x4096x25_0_1_2 : S1x1x25.BroadcastsInDim S8x4096x25 (![0, 1, 2] : Fin 3 → Fin S8x4096x25.rank)
  shapeCasts_S8x4096x25_S8x102400 : S8x4096x25.ShapeCasts S8x102400
  bcast_S8x102400_S8x102400x1_0_1 : S8x102400.BroadcastsInDim S8x102400x1 (![0, 1] : Fin 2 → Fin S8x102400x1.rank)
  bcast_S_S8x102400x1 : S_.BroadcastsInDim S8x102400x1 (![] : Fin 0 → Fin S8x102400x1.rank)
  bcast_S1_S1x1x1_2 : S1.BroadcastsInDim S1x1x1 (![2] : Fin 1 → Fin S1x1x1.rank)
  bcast_S1x1x1_S8x102400x1_0_1_2 : S1x1x1.BroadcastsInDim S8x102400x1 (![0, 1, 2] : Fin 3 → Fin S8x102400x1.rank)
  reducesTo_S8x102400x1_S8x102400_d2 : S8x102400x1.ReducesTo [2] S8x102400
  bcast_S8x102400_S8x102400x32_0_1 : S8x102400.BroadcastsInDim S8x102400x32 (![0, 1] : Fin 2 → Fin S8x102400x32.rank)
  bcast_S_S8x102400x32 : S_.BroadcastsInDim S8x102400x32 (![] : Fin 0 → Fin S8x102400x32.rank)
  shapeCasts_S8x102400x32_S32768x5x5x32 : S8x102400x32.ShapeCasts S32768x5x5x32
  shapeCasts_S25x2_S1x5x5x2 : S25x2.ShapeCasts S1x5x5x2
  bcast_S2_S1x1x1x2_3 : S2.BroadcastsInDim S1x1x1x2 (![3] : Fin 1 → Fin S1x1x1x2.rank)
  bcast_S1x1x1x2_S1x5x5x2_0_1_2_3 : S1x1x1x2.BroadcastsInDim S1x5x5x2 (![0, 1, 2, 3] : Fin 4 → Fin S1x5x5x2.rank)
  shapeCasts_S8x4096x2_S32768x1x1x2 : S8x4096x2.ShapeCasts S32768x1x1x2
  bcast_S1x5x5x2_S32768x5x5x2_0_1_2_3 : S1x5x5x2.BroadcastsInDim S32768x5x5x2 (![0, 1, 2, 3] : Fin 4 → Fin S32768x5x5x2.rank)
  bcast_S32768x1x1x2_S32768x5x5x2_0_1_2_3 : S32768x1x1x2.BroadcastsInDim S32768x5x5x2 (![0, 1, 2, 3] : Fin 4 → Fin S32768x5x5x2.rank)
  reducesTo_S32768x5x5x2_S32768x5x5_d3 : S32768x5x5x2.ReducesTo [3] S32768x5x5
  bcast_S32768x5x5_S32768x5x5x1_0_1_2 : S32768x5x5.BroadcastsInDim S32768x5x5x1 (![0, 1, 2] : Fin 3 → Fin S32768x5x5x1.rank)
  bcast_S_S32768x5x5x1 : S_.BroadcastsInDim S32768x5x5x1 (![] : Fin 0 → Fin S32768x5x5x1.rank)
  bcast_S32768x5x5x1_S32768x5x5x2_0_1_2_3 : S32768x5x5x1.BroadcastsInDim S32768x5x5x2 (![0, 1, 2, 3] : Fin 4 → Fin S32768x5x5x2.rank)
  concatenates_S32768x5x5x32_S32768x5x5x2_S32768x5x5x1_S32768x5x5x35_d3 : Shape.Concatenates [S32768x5x5x32, S32768x5x5x2, S32768x5x5x1] S32768x5x5x35 3
  shapeCasts_S32768x5x5x35_S32768x875 : S32768x5x5x35.ShapeCasts S32768x875
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  gather_S8x67600x32_S8x102400x1_S8x102400x32_2_1_0_0_1_2_1132_wf : GatherDims.WF S8x67600x32 S8x102400x1 S8x102400x32 [2] [1] [0] [1] [0] 2 ![1, 1, 32]
  dot_S32768x875_S875x256_S32768x256_1_0_0_1_n_n_wf : DotDims.WF S32768x875 S875x256 S32768x256 [1] [0] [0] [1] [] []
  dot_S32768x256_S256x64_S32768x64_1_0_0_1_n_n_wf : DotDims.WF S32768x256 S256x64 S32768x64 [1] [0] [0] [1] [] []

variable [Facts₀]

def gather_S8x67600x32_S8x102400x1_S8x102400x32_2_1_0_0_1_2_1132 : GatherDims S8x67600x32 S8x102400x1 S8x102400x32 where
  offsetDims := [2]
  collapsedSliceDims := [1]
  operandBatchingDims := [0]
  startIndicesBatchingDims := [0]
  startIndexMap := [1]
  indexVectorDim := 2
  sliceSizes := ![1, 1, 32]
  wf := gather_S8x67600x32_S8x102400x1_S8x102400x32_2_1_0_0_1_2_1132_wf
def dot_S32768x875_S875x256_S32768x256_1_0_0_1_n_n : DotDims S32768x875 S875x256 S32768x256 where
  lhsContracting := [1]
  rhsContracting := [0]
  lhsNonContracting := [0]
  rhsNonContracting := [1]
  lhsBatch := []
  rhsBatch := []
  wf := dot_S32768x875_S875x256_S32768x256_1_0_0_1_n_n_wf
def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf

class Facts : Prop extends Facts₀ where

variable [Facts]
-- ==== Proof.BitsFrame.lean ====
/-
  The frame of `Kernel`: every weakly fair execution of @main terminates without a fault and leaves the six
  argument arrays as they were launched.

  @main is seven stretches of host operations — the index arithmetic, the zero padding, the row gather, the
  coordinate differences and their norms, the concatenation into the [32768, 875] matrix of flattened patches —
  followed by one pallas_call over a grid of sixteen points. At point t the call stages rows
  2048·t … 2048·t + 2047 of the patch matrix, both weight matrices and both bias vectors whole, and writes back
  rows 2048·t … 2048·t + 2047 of the [32768, 64] result. The body loads its five input blocks whole, computes
  one [2048, 64] value from them and stores it over the whole output block; it keeps nothing between points.
  So the proof data is: every input window's buffer holds that window's block of the array as the region finds
  it; the output window's buffer holds, after the body, the one stored piece; nothing else changes. No host
  operation writes an argument array, no window writes one back, and the region's invariant is the untouched
  scoped rest: the arguments end unchanged. Everything here holds at any float instance.
-/
import proofs.«146009_j16913581211931_1_alg».proof.Proof.Gen.Kernel.Launch
import proofs.«146009_j16913581211931_1_alg».proof.Proof.Gen.Kernel.Skeleton
import proofs.«146009_j16913581211931_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations that precede the region, stretch by stretch. -/
abbrev prefixOps : List (List (HloOp τ sig (Elt F))) :=
  [hostOps0, hostOps0_1, hostOps0_2, hostOps0_3, hostOps0_4, hostOps0_5, hostOps0_6]

/-- Core `c`'s TensorCore buffers when the region is entered: the launch contents after the host operations. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- A buffer that no host operation before the region writes is found by the region as launched. -/
theorem V_of_unwritten (c : Dev nD) (b : Ref sig .tc)
    (h : (List.flatten (prefixOps (F := F))).Forall fun op => Proc.devRef .tc b ∉ op.writes) :
    V m c b = m ((c : Thread nD τ).loc b) :=
  StableHlo.after_of_forall_not_mem (b := Proc.devRef .tc b) _ _ (List.forall_iff_forall_mem.mp h)

macro "unwritten" : tactic => `(tactic| (
  simp only [prefixOps, hostOps0, hostOps0_1, hostOps0_2, hostOps0_3, hostOps0_4, hostOps0_5, hostOps0_6,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem V_main_arg0 (c : Dev nD) : V m c main_arg0 = m ((c : Thread nD τ).loc main_arg0) :=
  V_of_unwritten m c main_arg0 (by unwritten)
theorem V_main_arg1 (c : Dev nD) : V m c main_arg1 = m ((c : Thread nD τ).loc main_arg1) :=
  V_of_unwritten m c main_arg1 (by unwritten)
theorem V_main_arg2 (c : Dev nD) : V m c main_arg2 = m ((c : Thread nD τ).loc main_arg2) :=
  V_of_unwritten m c main_arg2 (by unwritten)
theorem V_main_arg3 (c : Dev nD) : V m c main_arg3 = m ((c : Thread nD τ).loc main_arg3) :=
  V_of_unwritten m c main_arg3 (by unwritten)
theorem V_main_arg4 (c : Dev nD) : V m c main_arg4 = m ((c : Thread nD τ).loc main_arg4) :=
  V_of_unwritten m c main_arg4 (by unwritten)
theorem V_main_arg5 (c : Dev nD) : V m c main_arg5 = m ((c : Thread nD τ).loc main_arg5) :=
  V_of_unwritten m c main_arg5 (by unwritten)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    not: an unfetched window's block index has not moved since it was last fetched. Stated for any proof data
    whose array is the region's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the frame: the features and the positions are arrays no window
    stages, so they end as the region found them; each weight and bias array is staged by an input window that is
    never written back; and the region found all six as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The body's accesses -/

abbrev r0_0 : Rect S2048x875 := Rect.unit (s := S2048x875) ![0, 0] S2048x875.size inb_S2048x875_S2048x875_0_0
abbrev r0_1 : Rect S875x256 := Rect.unit (s := S875x256) ![0, 0] S875x256.size inb_S875x256_S875x256_0_0
abbrev r0_2 : Rect S256 := Rect.unit (s := S256) ![0] S256.size inb_S256_S256_0
abbrev r0_3 : Rect S256x64 := Rect.unit (s := S256x64) ![0, 0] S256x64.size inb_S256x64_S256x64_0_0
abbrev r0_4 : Rect S64 := Rect.unit (s := S64) ![0] S64.size inb_S64_S64_0
abbrev r0_5 : Rect S2048x64 := Rect.unit (s := S2048x64) ![0, 0] S2048x64.size inb_S2048x64_S2048x64_0_0

/-! ## What the body leaves in the output window's buffer -/

/-- The output block after the body, from the five input blocks: its one store, over the whole block, of the
    body's one computed value. -/
def out0_5 (x0 : Vec F S2048x875 .f32) (x1 : Vec F S875x256 .f32) (x2 : Vec F S256 .f32) (x3 : Vec F S256x64 .f32) (x4 : Vec F S64 .f32) : Vec F S2048x64 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S2048x64 .f32) (y : S2048x64.Idx) :
    ∃ pc ∈ ([⟨r0_5, p0⟩] : List (View.Piece (Elt F) S2048x64 .f32)), y ∈ pc.1.set :=
  View.cover_of_tiled [⟨r0_5, p0⟩] S2048x64.size (by rfl) y

/-! ## The body's triple -/

set_option maxHeartbeats 1000000 in
/-- The body on whole staging memrefs — the inputs' at contents reading `x0 … x4`, the output's at anything — runs
    to the end holding the inputs' as they were and the output's at `out0_5` of them. The output buffer's old
    contents are loaded and not used. -/
theorem sound_kernel (c : Dev nD) (E : Set ℕ) (i : grid0.Coords)
    (arg1 : Memref sig .tc .vmem S2048x875 .f32) (harg1 : arg1.IsWhole) (arg2 : Memref sig .tc .vmem S875x256 .f32) (harg2 : arg2.IsWhole)
    (arg3 : Memref sig .tc .vmem S256 .f32) (harg3 : arg3.IsWhole) (arg4 : Memref sig .tc .vmem S256x64 .f32) (harg4 : arg4.IsWhole)
    (arg5 : Memref sig .tc .vmem S64 .f32) (harg5 : arg5.IsWhole) (arg6 : Memref sig .tc .vmem S2048x64 .f32) (harg6 : arg6.IsWhole)
    (x0 : Vec F S2048x875 .f32) (x1 : Vec F S875x256 .f32) (x2 : Vec F S256 .f32) (x3 : Vec F S256x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mixer_kernel i arg1 harg1 arg2 harg2 arg3 harg3 arg4 harg4 arg5 harg5 arg6 harg6) K := by
  simp only [cc0__mixer_kernel_eq_skeleton]; unfold cc0__mixer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer at its block and the output's at `out0_5` of the input blocks; the invariant the untouched
    scoped rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.IdealFrame.lean ====
/-
  The frame of `KernelIdeal`: every weakly fair execution of @main terminates without a fault and leaves the six
  argument arrays as they were launched.

  @main is seven stretches of host operations — the index arithmetic, the zero padding, the row gather, the
  coordinate differences and their norms, the concatenation into the [32768, 875] matrix of flattened patches —
  followed by one pallas_call over a grid of sixteen points. At point t the call stages rows
  2048·t … 2048·t + 2047 of the patch matrix, both weight matrices and both bias vectors whole, and writes back
  rows 2048·t … 2048·t + 2047 of the [32768, 64] result. The body loads its five input blocks whole, computes
  one [2048, 64] value from them and stores it over the whole output block; it keeps nothing between points.
  So the proof data is: every input window's buffer holds that window's block of the array as the region finds
  it; the output window's buffer holds, after the body, the one stored piece; nothing else changes. No host
  operation writes an argument array, no window writes one back, and the region's invariant is the untouched
  scoped rest: the arguments end unchanged. Everything here holds at any float instance.
-/
import proofs.«146009_j16913581211931_1_alg».proof.Proof.Gen.KernelIdeal.Launch
import proofs.«146009_j16913581211931_1_alg».proof.Proof.Gen.KernelIdeal.Skeleton
import proofs.«146009_j16913581211931_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations that precede the region, stretch by stretch. -/
abbrev prefixOps : List (List (HloOp τ sig (Elt F))) :=
  [hostOps0, hostOps0_1, hostOps0_2, hostOps0_3, hostOps0_4, hostOps0_5, hostOps0_6]

/-- Core `c`'s TensorCore buffers when the region is entered: the launch contents after the host operations. -/
abbrev V (c : Dev nD) (b : Ref sig .tc) : Buf (Elt F) ((c : Thread nD τ).loc b) :=
  StableHlo.after (List.flatten (prefixOps (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is its host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (prefixOps (F := F))
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- A buffer that no host operation before the region writes is found by the region as launched. -/
theorem V_of_unwritten (c : Dev nD) (b : Ref sig .tc)
    (h : (List.flatten (prefixOps (F := F))).Forall fun op => Proc.devRef .tc b ∉ op.writes) :
    V m c b = m ((c : Thread nD τ).loc b) :=
  StableHlo.after_of_forall_not_mem (b := Proc.devRef .tc b) _ _ (List.forall_iff_forall_mem.mp h)

macro "unwritten" : tactic => `(tactic| (
  simp only [prefixOps, hostOps0, hostOps0_1, hostOps0_2, hostOps0_3, hostOps0_4, hostOps0_5, hostOps0_6,
    List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

theorem V_main_arg0 (c : Dev nD) : V m c main_arg0 = m ((c : Thread nD τ).loc main_arg0) :=
  V_of_unwritten m c main_arg0 (by unwritten)
theorem V_main_arg1 (c : Dev nD) : V m c main_arg1 = m ((c : Thread nD τ).loc main_arg1) :=
  V_of_unwritten m c main_arg1 (by unwritten)
theorem V_main_arg2 (c : Dev nD) : V m c main_arg2 = m ((c : Thread nD τ).loc main_arg2) :=
  V_of_unwritten m c main_arg2 (by unwritten)
theorem V_main_arg3 (c : Dev nD) : V m c main_arg3 = m ((c : Thread nD τ).loc main_arg3) :=
  V_of_unwritten m c main_arg3 (by unwritten)
theorem V_main_arg4 (c : Dev nD) : V m c main_arg4 = m ((c : Thread nD τ).loc main_arg4) :=
  V_of_unwritten m c main_arg4 (by unwritten)
theorem V_main_arg5 (c : Dev nD) : V m c main_arg5 = m ((c : Thread nD τ).loc main_arg5) :=
  V_of_unwritten m c main_arg5 (by unwritten)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or
    not: an unfetched window's block index has not moved since it was last fetched. Stated for any proof data
    whose array is the region's and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, the frame: the features and the positions are arrays no window
    stages, so they end as the region found them; each weight and bias array is staged by an input window that is
    never written back; and the region found all six as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c)))⟩) h

/-! ## The body's accesses -/

abbrev r0_0 : Rect S2048x875 := Rect.unit (s := S2048x875) ![0, 0] S2048x875.size inb_S2048x875_S2048x875_0_0
abbrev r0_1 : Rect S875x256 := Rect.unit (s := S875x256) ![0, 0] S875x256.size inb_S875x256_S875x256_0_0
abbrev r0_2 : Rect S256 := Rect.unit (s := S256) ![0] S256.size inb_S256_S256_0
abbrev r0_3 : Rect S256x64 := Rect.unit (s := S256x64) ![0, 0] S256x64.size inb_S256x64_S256x64_0_0
abbrev r0_4 : Rect S64 := Rect.unit (s := S64) ![0] S64.size inb_S64_S64_0
abbrev r0_5 : Rect S2048x64 := Rect.unit (s := S2048x64) ![0, 0] S2048x64.size inb_S2048x64_S2048x64_0_0

/-! ## What the body leaves in the output window's buffer -/

/-- The output block after the body, from the five input blocks: its one store, over the whole block, of the
    body's one computed value. -/
def out0_5 (x0 : Vec F S2048x875 .f32) (x1 : Vec F S875x256 .f32) (x2 : Vec F S256 .f32) (x3 : Vec F S256x64 .f32) (x4 : Vec F S64 .f32) : Vec F S2048x64 .f32 :=
  View.canon [⟨r0_5, k0_pay1 (View.ld x0 r0_0) (View.ld x1 r0_1) (View.ld x2 r0_2) (View.ld x3 r0_3) (View.ld x4 r0_4)⟩]

/-- The one store covers the block. -/
theorem cover0_5 (p0 : Vec F S2048x64 .f32) (y : S2048x64.Idx) :
    ∃ pc ∈ ([⟨r0_5, p0⟩] : List (View.Piece (Elt F) S2048x64 .f32)), y ∈ pc.1.set :=
  View.cover_of_tiled [⟨r0_5, p0⟩] S2048x64.size (by rfl) y

/-! ## The body's triple -/

set_option maxHeartbeats 1000000 in
/-- The body on whole staging memrefs — the inputs' at contents reading `x0 … x4`, the output's at anything — runs
    to the end holding the inputs' as they were and the output's at `out0_5` of them. The output buffer's old
    contents are loaded and not used. -/
theorem sound_kernel (c : Dev nD) (E : Set ℕ) (i : grid0.Coords)
    (arg1 : Memref sig .tc .vmem S2048x875 .f32) (harg1 : arg1.IsWhole) (arg2 : Memref sig .tc .vmem S875x256 .f32) (harg2 : arg2.IsWhole)
    (arg3 : Memref sig .tc .vmem S256 .f32) (harg3 : arg3.IsWhole) (arg4 : Memref sig .tc .vmem S256x64 .f32) (harg4 : arg4.IsWhole)
    (arg5 : Memref sig .tc .vmem S64 .f32) (harg5 : arg5.IsWhole) (arg6 : Memref sig .tc .vmem S2048x64 .f32) (harg6 : arg6.IsWhole)
    (x0 : Vec F S2048x875 .f32) (x1 : Vec F S875x256 .f32) (x2 : Vec F S256 .f32) (x3 : Vec F S256x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mixer_kernel i arg1 harg1 arg2 harg2 arg3 harg3 arg4 harg4 arg5 harg5 arg6 harg6) K := by
  simp only [cc0__mixer_kernel_eq_skeleton]; unfold cc0__mixer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t`
    each input's buffer at its block and the output's at `out0_5` of the input blocks; the invariant the untouched
    scoped rest and generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the pipeline at what
    the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.MixerSpec.lean ====
/-
  The local mixer as one function of its operands, on the extended reals.

  For a matrix X of N rows and 875 columns, weights W1 [875, 256] and W2 [256, 64] and biases b1 [256], b2 [64],
  row p of the result is  relu(X_p · W1 + b1) · W2 + b2 : the hidden unit k of row p is
  max(Σ_l X(p,l)·W1(l,k) + b1(k), 0), and entry (p, q) of the result is Σ_k hidden(p,k)·W2(k,q) + b2(q).
  Row p of the result depends on row p of X only, which is why a block of rows of the result is the same
  function of the corresponding block of rows of X.
-/
import Idealize.ShloMosaic.PureOps.Ideal
import Idealize.ShloMosaic.Lib.ValueIdx

noncomputable section

namespace Cert.Mixer

open Idealize.ShloMosaic Idealize.ShloMosaic.ValueIdx

/-- Hidden unit `k` of row `p`: the rectified affine form of the row. -/
def hidden {N : ℕ} (X : (⟨2, ![N, 875]⟩ : Shape).Idx → EReal) (W1 : (⟨2, ![875, 256]⟩ : Shape).Idx → EReal)
    (b1 : (⟨1, ![256]⟩ : Shape).Idx → EReal) (p : Fin N) (k : Fin 256) : EReal :=
  max ((∑ l : Fin 875, X (ix2 p l) * W1 (ix2 l k)) + b1 (ix1 k)) 0

/-- Entry `(p, q)` of the mixer's result. -/
def entry {N : ℕ} (X : (⟨2, ![N, 875]⟩ : Shape).Idx → EReal) (W1 : (⟨2, ![875, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (p : Fin N) (q : Fin 64) : EReal :=
  (∑ k : Fin 256, hidden X W1 b1 p k * W2 (ix2 k q)) + b2 (ix1 q)

/-- The mixer's result as an array. -/
def result {N : ℕ} (X : (⟨2, ![N, 875]⟩ : Shape).Idx → EReal) (W1 : (⟨2, ![875, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![N, 64]⟩ : Shape).Idx → EReal :=
  fun i => entry X W1 b1 W2 b2 (i 0) (i 1)

theorem result_apply {N : ℕ} (X : (⟨2, ![N, 875]⟩ : Shape).Idx → EReal) (W1 : (⟨2, ![875, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (p : Fin N) (q : Fin 64) :
    result X W1 b1 W2 b2 (ix2 p q) = entry X W1 b1 W2 b2 p q := rfl

/-- The result's rows depend on the same rows of `X`: if two matrices agree row `p` against row `p'`, so do the results. -/
theorem entry_congr {N N' : ℕ} (X : (⟨2, ![N, 875]⟩ : Shape).Idx → EReal) (X' : (⟨2, ![N', 875]⟩ : Shape).Idx → EReal)
    (W1 : (⟨2, ![875, 256]⟩ : Shape).Idx → EReal) (b1 : (⟨1, ![256]⟩ : Shape).Idx → EReal)
    (W2 : (⟨2, ![256, 64]⟩ : Shape).Idx → EReal) (b2 : (⟨1, ![64]⟩ : Shape).Idx → EReal)
    (p : Fin N) (p' : Fin N') (h : ∀ l : Fin 875, X (ix2 p l) = X' (ix2 p' l)) (q : Fin 64) :
    entry X W1 b1 W2 b2 p q = entry X' W1 b1 W2 b2 p' q := by
  unfold entry hidden
  simp only [h]

end Cert.Mixer

end
-- ==== Proof.IdealPayload.lean ====
/-
  The kernel body's one stored value, at the extended reals, entry by entry.

  The body computes, from a [2048, 875] block x0 of patch rows, the weights x1, x3 and the biases x2, x4:
  the product x0·x1 into a zero accumulator, plus the bias row broadcast over the 2048 rows, clamped below at zero,
  the product of that with x3 into a zero accumulator, plus the second bias row. The changes of float format in
  between are the identity on extended reals, the reshape of the block to its own shape is the identity, and a
  bias [n] reshaped to [1, n] and broadcast to [2048, n] reads, at (p, k), the bias at k. So entry (p, q) of the
  stored value is the mixer's entry (p, q) for the block read as a 2048-row matrix.
-/
import proofs.«146009_j16913581211931_1_alg».proof.Proof.Gen.KernelIdeal.Skeleton
import proofs.«146009_j16913581211931_1_alg».proof.Proof.MixerSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-! ## The two matrix products read at an entry -/

theorem lhs1_0 (i : S2048x256.Idx) (q : dot_S2048x875_S875x256_S2048x256_1_0_0_1_n_n.contr.Idx) : (dot_S2048x875_S875x256_S2048x256_1_0_0_1_n_n.lhsIdx i q 0).val = (i 0).val := by
  unfold DotDims.lhsIdx
  rw [dif_neg (show ¬(0 : Fin S2048x875.rank) ∈ dot_S2048x875_S875x256_S2048x256_1_0_0_1_n_n.lhsBatch by decide), dif_pos (show (0 : Fin S2048x875.rank) ∈ dot_S2048x875_S875x256_S2048x256_1_0_0_1_n_n.lhsNonContracting by decide)]
  rfl
theorem lhs1_1 (i : S2048x256.Idx) (q : dot_S2048x875_S875x256_S2048x256_1_0_0_1_n_n.contr.Idx) : (dot_S2048x875_S875x256_S2048x256_1_0_0_1_n_n.lhsIdx i q 1).val = (q ⟨0, by decide⟩).val :=
  dot_S2048x875_S875x256_S2048x256_1_0_0_1_n_n.lhsIdx_val_of_single rfl i q
theorem rhs1_0 (i : S2048x256.Idx) (q : dot_S2048x875_S875x256_S2048x256_1_0_0_1_n_n.contr.Idx) : (dot_S2048x875_S875x256_S2048x256_1_0_0_1_n_n.rhsIdx i q 0).val = (q ⟨0, by decide⟩).val :=
  dot_S2048x875_S875x256_S2048x256_1_0_0_1_n_n.rhsIdx_val_of_single rfl i q
theorem rhs1_1 (i : S2048x256.Idx) (q : dot_S2048x875_S875x256_S2048x256_1_0_0_1_n_n.contr.Idx) : (dot_S2048x875_S875x256_S2048x256_1_0_0_1_n_n.rhsIdx i q 1).val = (i 1).val := by
  unfold DotDims.rhsIdx
  rw [dif_neg (show ¬(1 : Fin S875x256.rank) ∈ dot_S2048x875_S875x256_S2048x256_1_0_0_1_n_n.rhsBatch by decide), dif_pos (show (1 : Fin S875x256.rank) ∈ dot_S2048x875_S875x256_S2048x256_1_0_0_1_n_n.rhsNonContracting by decide)]
  rfl

/-- The product into a zero accumulator, read at `(p, c)`, is the sum over the contracted axis of the left
    operand's row `p` against the right operand's column `c`. -/
theorem matmul1_apply (a : FVec Ideal S2048x875 .bf16) (b : FVec Ideal S875x256 .bf16) (p : Fin 2048) (c : Fin 256) :
    FloatOps.matmul dot_S2048x875_S875x256_S2048x256_1_0_0_1_n_n none a b (constant (F := Ideal) S2048x256 .f32 0x00000000#32) (ix2 p c)
      = ∑ l : Fin 875, a (ix2 p l) * b (ix2 l c) := by
  rw [Ideal.matmul_constant_zero_apply, ← Equiv.sum_comp (ValueIdx.contrEquiv1 dot_S2048x875_S875x256_S2048x256_1_0_0_1_n_n 875 rfl rfl).symm]
  refine Finset.sum_congr rfl fun l _ => ?_
  have hk := ValueIdx.contrEquiv1_symm_val dot_S2048x875_S875x256_S2048x256_1_0_0_1_n_n 875 rfl rfl l
  have el : dot_S2048x875_S875x256_S2048x256_1_0_0_1_n_n.lhsIdx (ix2 p c) ((ValueIdx.contrEquiv1 dot_S2048x875_S875x256_S2048x256_1_0_0_1_n_n 875 rfl rfl).symm l) = ix2 p l := funext fun ax => Fin.ext (by
    match ax with
    | ⟨0, _⟩ => exact lhs1_0 _ _
    | ⟨1, _⟩ => exact (lhs1_1 _ _).trans hk)
  have er : dot_S2048x875_S875x256_S2048x256_1_0_0_1_n_n.rhsIdx (ix2 p c) ((ValueIdx.contrEquiv1 dot_S2048x875_S875x256_S2048x256_1_0_0_1_n_n 875 rfl rfl).symm l) = ix2 l c := funext fun ax => Fin.ext (by
    match ax with
    | ⟨0, _⟩ => exact (rhs1_0 _ _).trans hk
    | ⟨1, _⟩ => exact rhs1_1 _ _)
  rw [el, er]

theorem lhs2_0 (i : S2048x64.Idx) (q : dot_S2048x256_S256x64_S2048x64_1_0_0_1_n_n.contr.Idx) : (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide), dif_pos (show (0 : Fin S2048x256.rank) ∈ dot_S2048x256_S256x64_S2048x64_1_0_0_1_n_n.lhsNonContracting by decide)]
  rfl
theorem lhs2_1 (i : S2048x64.Idx) (q : dot_S2048x256_S256x64_S2048x64_1_0_0_1_n_n.contr.Idx) : (dot_S2048x256_S256x64_S2048x64_1_0_0_1_n_n.lhsIdx i q 1).val = (q ⟨0, by decide⟩).val :=
  dot_S2048x256_S256x64_S2048x64_1_0_0_1_n_n.lhsIdx_val_of_single rfl i q
theorem rhs2_0 (i : S2048x64.Idx) (q : dot_S2048x256_S256x64_S2048x64_1_0_0_1_n_n.contr.Idx) : (dot_S2048x256_S256x64_S2048x64_1_0_0_1_n_n.rhsIdx i q 0).val = (q ⟨0, by decide⟩).val :=
  dot_S2048x256_S256x64_S2048x64_1_0_0_1_n_n.rhsIdx_val_of_single rfl i q
theorem rhs2_1 (i : S2048x64.Idx) (q : dot_S2048x256_S256x64_S2048x64_1_0_0_1_n_n.contr.Idx) : (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide), dif_pos (show (1 : Fin S256x64.rank) ∈ dot_S2048x256_S256x64_S2048x64_1_0_0_1_n_n.rhsNonContracting by decide)]
  rfl

/-- The product into a zero accumulator, read at `(p, c)`, is the sum over the contracted axis of the left
    operand's row `p` against the right operand's column `c`. -/
theorem matmul2_apply (a : FVec Ideal S2048x256 .bf16) (b : FVec Ideal S256x64 .bf16) (p : Fin 2048) (c : Fin 64) :
    FloatOps.matmul dot_S2048x256_S256x64_S2048x64_1_0_0_1_n_n none a b (constant (F := Ideal) S2048x64 .f32 0x00000000#32) (ix2 p c)
      = ∑ l : Fin 256, a (ix2 p l) * b (ix2 l c) := by
  rw [Ideal.matmul_constant_zero_apply, ← Equiv.sum_comp (ValueIdx.contrEquiv1 dot_S2048x256_S256x64_S2048x64_1_0_0_1_n_n 256 rfl rfl).symm]
  refine Finset.sum_congr rfl fun l _ => ?_
  have hk := ValueIdx.contrEquiv1_symm_val dot_S2048x256_S256x64_S2048x64_1_0_0_1_n_n 256 rfl rfl l
  have el : dot_S2048x256_S256x64_S2048x64_1_0_0_1_n_n.lhsIdx (ix2 p c) ((ValueIdx.contrEquiv1 dot_S2048x256_S256x64_S2048x64_1_0_0_1_n_n 256 rfl rfl).symm l) = ix2 p l := funext fun ax => Fin.ext (by
    match ax with
    | ⟨0, _⟩ => exact lhs2_0 _ _
    | ⟨1, _⟩ => exact (lhs2_1 _ _).trans hk)
  have er : dot_S2048x256_S256x64_S2048x64_1_0_0_1_n_n.rhsIdx (ix2 p c) ((ValueIdx.contrEquiv1 dot_S2048x256_S256x64_S2048x64_1_0_0_1_n_n 256 rfl rfl).symm l) = ix2 l c := funext fun ax => Fin.ext (by
    match ax with
    | ⟨0, _⟩ => exact (rhs2_0 _ _).trans hk
    | ⟨1, _⟩ => exact rhs2_1 _ _)
  rw [el, er]

/-! ## The stored value read at an entry -/

/-- Entry `(p, q)` of the body's stored value is the mixer's entry `(p, q)` of the five loaded blocks. -/
theorem pay_apply (x0 : Vec Ideal S2048x875 .f32) (x1 : Vec Ideal S875x256 .f32) (x2 : Vec Ideal S256 .f32)
    (x3 : Vec Ideal S256x64 .f32) (x4 : Vec Ideal S64 .f32) (p : Fin 2048) (q : Fin 64) :
    k0_pay1 (F := Ideal) x0 x1 x2 x3 x4 (ix2 p q) = Cert.Mixer.entry x0 x1 x2 x3 x4 p q := by
  have e0 : shapeCast S2048x875 x0 shapeCasts_S2048x875_S2048x875 = x0 := shapeCast_self x0 _
  have eb1 : ∀ k : Fin 256, broadcastTo S2048x256 (shapeCast S1x256 x2 shapeCasts_S256_S1x256) broadcasts_S1x256_S2048x256 (ix2 p k) = x2 (ix1 k) :=
    fun k => (broadcastTo_1b_ab_apply _ _ p k).trans (shapeCast_a_1a_apply x2 _ 0 k)
  have eb2 : broadcastTo S2048x64 (shapeCast S1x64 x4 shapeCasts_S64_S1x64) broadcasts_S1x64_S2048x64 (ix2 p q) = x4 (ix1 q) :=
    (broadcastTo_1b_ab_apply _ _ p q).trans (shapeCast_a_1a_apply x4 _ 0 q)
  have h1 : ∀ k : Fin 256, FloatOps.matmul dot_S2048x875_S875x256_S2048x256_1_0_0_1_n_n none
      (truncf .bf16 (shapeCast S2048x875 x0 shapeCasts_S2048x875_S2048x875) bitsLt_bf16_f32) (truncf .bf16 x1 bitsLt_bf16_f32)
      (constant (F := Ideal) S2048x256 .f32 0x00000000#32) (ix2 p k) = ∑ l : Fin 875, x0 (ix2 p l) * x1 (ix2 l k) := fun k => by
    rw [e0]; exact matmul1_apply _ _ p k
  unfold k0_pay1 Cert.Mixer.entry Cert.Mixer.hidden
  refine congrArg₂ (· + ·) ?_ eb2
  refine (matmul2_apply _ _ p q).trans ?_
  refine Finset.sum_congr rfl fun k _ => ?_
  refine congrArg₂ (· * ·) ?_ rfl
  exact congrArg₂ max (congrArg₂ (· + ·) (h1 k) (eb1 k)) Ideal.ofBits_zero_f32

end Cert.KernelIdeal.HandValue

end
-- ==== Proof.IdealValue.lean ====
/-
  What the kernel leaves in its result array, at the extended reals: the mixer's result for the patch matrix as
  the region finds it.

  Grid point t stages rows 2048·t … 2048·t + 2047 of the patch matrix (window 0) and the weights and biases
  whole (windows 1–4: their block index is 0 on every axis), and writes back rows 2048·t … 2048·t + 2047 of the
  result (window 5). The body's stored value at (p, q) is the mixer's entry (p, q) of the staged blocks; row p of
  the staged block of patches is row 2048·t + p of the matrix, and a row of the mixer's result depends on the same
  row of the matrix only; so what point t writes back is block t of ONE array, the mixer's result for the whole
  matrix. The sixteen blocks cover the 32768 rows — row r is in block r / 2048 — so the array ends at that result.
-/
import proofs.«146009_j16913581211931_1_alg».proof.Proof.IdealFrame
import proofs.«146009_j16913581211931_1_alg».proof.Proof.IdealPayload
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The grid has sixteen points. -/
theorem t_lt (t : Fin cfg0.N) : t.val < 16 := by
  have h := t.isLt
  have hN : cfg0.N = 16 := N_0
  omega

/-- The array the kernel leaves in its result: the mixer's result for the patch matrix, the weights and the biases
    as the region finds them. -/
def kernelResult (c : Dev nD) : S32768x64.Idx → EReal :=
  Cert.Mixer.result (N := 32768) (V m c main_v66) (V m c main_arg2) (V m c main_arg3) (V m c main_arg4) (V m c main_arg5)

/-- The printed index maps over the grid: the patch rows and the result rows move with the point, every other
    block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## The staged blocks, read off the arrays -/

/-- Row `p` of the block of patch rows staged at point `t` is row `2048·t + p` of the matrix. -/
theorem blk0 (c : Dev nD) (t : Fin cfg0.N) (p : Fin 2048) (l : Fin 875) :
    iblk m c 0 t (ix2 p l) = V m c main_v66 (ix2 (⟨t.val * 2048 + p.val, by have := t_lt t; have := p.isLt; omega⟩ : Fin 32768) l) := by
  obtain ⟨e0, e1, -⟩ := idx_facts t
  show V m c main_v66 (((cfg0.win 0).blk t).view.emb (ix2 p l)) = _
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 875 + 1 * l.val = l.val; omega

/-- The first weight matrix is staged whole. -/
theorem blk1 (c : Dev nD) (t : Fin cfg0.N) : (iblk m c 1 t : S875x256.Idx → EReal) = V m c main_arg2 := by
  obtain ⟨-, -, e0, e1, -⟩ := idx_facts t
  funext y
  show V m c main_arg2 (((cfg0.win 1).blk t).view.emb y) = V m c main_arg2 y
  refine congrArg _ (funext fun a => Fin.ext ?_)
  match a with
  | ⟨0, _⟩ => show win0_1.index t (0 : Fin 2) * 875 + 1 * (y 0).val = (y 0).val; omega
  | ⟨1, _⟩ => show win0_1.index t (1 : Fin 2) * 256 + 1 * (y 1).val = (y 1).val; omega

/-- The first bias is staged whole. -/
theorem blk2 (c : Dev nD) (t : Fin cfg0.N) : (iblk m c 2 t : S256.Idx → EReal) = V m c main_arg3 := by
  obtain ⟨-, -, -, -, e0, -⟩ := idx_facts t
  funext y
  show V m c main_arg3 (((cfg0.win 2).blk t).view.emb y) = V m c main_arg3 y
  refine congrArg _ (funext fun a => Fin.ext ?_)
  match a with
  | ⟨0, _⟩ => show win0_2.index t (0 : Fin 1) * 256 + 1 * (y 0).val = (y 0).val; omega

/-- The second weight matrix is staged whole. -/
theorem blk3 (c : Dev nD) (t : Fin cfg0.N) : (iblk m c 3 t : S256x64.Idx → EReal) = V m c main_arg4 := by
  obtain ⟨-, -, -, -, -, e0, e1, -⟩ := idx_facts t
  funext y
  show V m c main_arg4 (((cfg0.win 3).blk t).view.emb y) = V m c main_arg4 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 64 + 1 * (y 1).val = (y 1).val; omega

/-- The second bias is staged whole. -/
theorem blk4 (c : Dev nD) (t : Fin cfg0.N) : (iblk m c 4 t : S64.Idx → EReal) = V m c main_arg5 := by
  obtain ⟨-, -, -, -, -, -, -, e0, -⟩ := idx_facts t
  funext y
  show V m c main_arg5 (((cfg0.win 4).blk t).view.emb y) = V m c main_arg5 y
  refine congrArg _ (funext fun a => Fin.ext ?_)
  match a with
  | ⟨0, _⟩ => show win0_4.index t (0 : Fin 1) * 64 + 1 * (y 0).val = (y 0).val; omega

/-- Entry `(p, q)` of the result block written back at point `t` is entry `(2048·t + p, q)` of the array. -/
theorem emb5 (t : Fin cfg0.N) (p : Fin 2048) (q : Fin 64) :
    ((cfg0.win 5).blk t).view.emb (ix2 p q) = ix2 (⟨t.val * 2048 + p.val, by have := t_lt t; have := p.isLt; omega⟩ : Fin 32768) q := by
  obtain ⟨-, -, -, -, -, -, -, -, e0, e1⟩ := idx_facts t
  funext a; apply Fin.ext
  match a with
  | ⟨0, _⟩ => show win0_5.index t (0 : Fin 2) * 2048 + 1 * p.val = t.val * 2048 + p.val; omega
  | ⟨1, _⟩ => show win0_5.index t (1 : Fin 2) * 64 + 1 * q.val = q.val; omega

/-! ## What each point writes back -/

/-- What point `t` writes back is block `t` of the mixer's result for the whole matrix. -/
theorem flushed5_eq (c : Dev nD) (t : Fin cfg0.N) :
    (dats m 0 c).flushed 5 t = ((cfg0.win 5).blk t).view.read (Elt Ideal) (kernelResult m c) := by
  show (cfg0.win 5).cut (grid0.coords t) ((dats m 0 c).after 5 t) = _
  rw [after0_5]
  unfold out0_5
  rw [View.canon_unit_zero hz2]
  simp only [View.ld_unit_zero (S := S2048x875) hz2, View.ld_unit_zero (S := S875x256) hz2, View.ld_unit_zero (S := S256) hz1,
    View.ld_unit_zero (S := S256x64) hz2, View.ld_unit_zero (S := S64) hz1]
  funext j
  obtain ⟨p, q, rfl⟩ : ∃ (p : Fin 2048) (q : Fin 64), j = ix2 p q := ⟨j 0, j 1, eq_ix2 j⟩
  show k0_pay1 (F := Ideal) (iblk m c 0 t) (iblk m c 1 t) (iblk m c 2 t) (iblk m c 3 t) (iblk m c 4 t) (ix2 p q)
      = kernelResult m c (((cfg0.win 5).blk t).view.emb (ix2 p q))
  rw [emb5 t p q]
  refine (pay_apply _ _ _ _ _ p q).trans ?_
  unfold kernelResult
  rw [Cert.Mixer.result_apply, blk1 m c t, blk2 m c t, blk3 m c t, blk4 m c t]
  exact Cert.Mixer.entry_congr _ _ _ _ _ _ p _ (fun l => blk0 m c t p l) q

/-! ## The blocks cover the array -/

theorem mem_blk5 (t : Fin cfg0.N) (i : S32768x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v67).slice (win0_5.rect t)).set ↔ _
  rw [View.set_slice_whole, Rect.mem_set_unit]
  exact Iff.rfl

/-- Row `r` of the result is in the block of point `r / 2048`. -/
theorem cover5 (i : S32768x64.Idx) : ∃ t : Fin cfg0.N, (cfg0.win 5).flush t = true ∧ i ∈ ((cfg0.win 5).blk t).view.set := by
  have hi0 : (i 0).val < 32768 := (i 0).isLt
  have hi1 : (i 1).val < 64 := (i 1).isLt
  have hN : (i 0).val / 2048 < cfg0.N := by rw [show cfg0.N = 16 from N_0]; omega
  obtain ⟨-, -, -, -, -, -, -, -, e0, e1⟩ := idx_facts ⟨(i 0).val / 2048, hN⟩
  refine ⟨⟨(i 0).val / 2048, hN⟩, flush0_5 _, ?_⟩
  rw [mem_blk5]
  intro a
  match a with
  | ⟨0, _⟩ =>
    show win0_5.index ⟨(i 0).val / 2048, hN⟩ (0 : Fin 2) * 2048 ≤ (i 0).val ∧ (i 0).val < win0_5.index ⟨(i 0).val / 2048, hN⟩ (0 : Fin 2) * 2048 + 2048
    have e0' : win0_5.index ⟨(i 0).val / 2048, hN⟩ (0 : Fin 2) = (i 0).val / 2048 := e0
    omega
  | ⟨1, _⟩ =>
    show win0_5.index ⟨(i 0).val / 2048, hN⟩ (1 : Fin 2) * 64 ≤ (i 1).val ∧ (i 1).val < win0_5.index ⟨(i 0).val / 2048, hN⟩ (1 : Fin 2) * 64 + 64
    omega

/-- The result array after the run. -/
theorem final5 (c : Dev nD) : (dats m 0 c).arrAt 5 cfg0.N = kernelResult m c :=
  (dats m 0 c).arrAt_eq_of_cover 5 (kernelResult m c) (fun t _ => flushed5_eq m c t) cover5

/-! ## The run, read -/

/-- Every weakly fair execution of the idealized kernel's @main terminates with the result array at the mixer's
    result for the patch matrix as the region finds it, and the six argument arrays as launched. -/
theorem run : θ_run defs (onTc (τ := τ) (main (F := Ideal))) ⟨m, fun _ => 0, ρ⟩ fun r => ∀ c : Dev nD,
      r.2.mem ((c.tc : Thread nD τ).loc main_v67)
        = Cert.Mixer.result (N := 32768) (V m c main_v66) (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 5).trans ((final5 m c).trans (by
        unfold kernelResult
        rw [V_main_arg2 m c, V_main_arg3 m c, V_main_arg4 m c, V_main_arg5 m c])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.HandValue

end
-- ==== Proof.RefRun.lean ====
/-
  The reference's run, and its last ten operations as the mixer.

  The reference's @main is one straight line of 113 host operations: every weakly fair execution terminates with
  each buffer at the fold of the operations' results over the launch contents. Its last ten operations take the
  [32768, 875] patch matrix X — what the first 103 operations leave — and the weights and biases as launched:
  X·W1, plus b1 broadcast over the rows (through a [1, 256] row), clamped below at zero against a splat of the
  zero word, times W2, plus b2 broadcast over the rows. Read at an entry (p, q), on the extended reals, that is
  the mixer's entry: the host's product is the plain sum over the contracted axis, a bias [n] broadcast to [1, n]
  and then to [32768, n] reads at (p, k) the bias at k, and the zero word is 0.
-/
import proofs.«146009_j16913581211931_1_alg».proof.Proof.RefRunP
import proofs.«146009_j16913581211931_1_alg».proof.Proof.MixerSpec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx

/-! ## The run -/

set_option maxRecDepth 16384 in
/-- Every weakly fair execution of the reference's @main terminates, and every final state has each buffer at the
    fold of the 113 operations' results over the launch contents. -/
theorem run_after {F : FTy → Type} [FloatOps F] (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

/-- A buffer none of the 113 operations writes ends as launched. -/
theorem after_unwritten {F : FTy → Type} [FloatOps F] (V : Valuation τ sig (Elt F)) (b : Ref sig .tc)
    (h : (ops (F := F)).Forall fun op => Proc.devRef .tc b ∉ op.writes) :
    after ops V (Proc.devRef .tc b) = V (Proc.devRef .tc b) :=
  after_of_forall_not_mem _ _ (List.forall_iff_forall_mem.mp h)

macro "ref_unwritten" : tactic => `(tactic| (
  simp only [ops, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

set_option maxRecDepth 16384 in
/-- The run with the six argument arrays read: no operation writes an argument. -/
theorem run_kept {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = after ops (launchContents m c) (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v75,
      (h c main_arg0).trans (after_unwritten _ main_arg0 (by ref_unwritten)),
      (h c main_arg1).trans (after_unwritten _ main_arg1 (by ref_unwritten)),
      (h c main_arg2).trans (after_unwritten _ main_arg2 (by ref_unwritten)),
      (h c main_arg3).trans (after_unwritten _ main_arg3 (by ref_unwritten)),
      (h c main_arg4).trans (after_unwritten _ main_arg4 (by ref_unwritten)),
      (h c main_arg5).trans (after_unwritten _ main_arg5 (by ref_unwritten))⟩)
    (run_after m ρ)

/-! ## The last ten operations -/

/-- The reference's last ten operations as one function of the patch matrix, the weights and the biases. -/
def mixerTail {F : FTy → Type} [FloatOps F] (X : (⟨S32768x875, .f32⟩ : BufTy).Contents (Elt F)) (w1 : (⟨S875x256, .f32⟩ : BufTy).Contents (Elt F))
    (b1 : (⟨S256, .f32⟩ : BufTy).Contents (Elt F)) (w2 : (⟨S256x64, .f32⟩ : BufTy).Contents (Elt F))
    (b2 : (⟨S64, .f32⟩ : BufTy).Contents (Elt F)) : (⟨S32768x64, .f32⟩ : BufTy).Contents (Elt F) :=
  addf (Host.dotGeneral dot_S32768x256_S256x64_S32768x64_1_0_0_1_n_n none
      (maximumf (addf (Host.dotGeneral dot_S32768x875_S875x256_S32768x256_1_0_0_1_n_n none X w1)
          (broadcastInDim S32768x256 ![0, 1] bcast_S1x256_S32768x256_0_1 (broadcastInDim S1x256 ![1] bcast_S256_S1x256_1 b1)))
        (broadcastInDim S32768x256 ![] bcast_S_S32768x256 (constant S_ .f32 0x00000000#32))) w2)
    (broadcastInDim S32768x64 ![0, 1] bcast_S1x64_S32768x64_0_1 (broadcastInDim S1x64 ![1] bcast_S64_S1x64_1 b2))

/-! ## The two host products read at an entry -/

theorem lhsR1_0 (i : S32768x256.Idx) (q : dot_S32768x875_S875x256_S32768x256_1_0_0_1_n_n.contr.Idx) : (dot_S32768x875_S875x256_S32768x256_1_0_0_1_n_n.lhsIdx i q 0).val = (i 0).val := by
  unfold DotDims.lhsIdx
  rw [dif_neg (show ¬(0 : Fin S32768x875.rank) ∈ dot_S32768x875_S875x256_S32768x256_1_0_0_1_n_n.lhsBatch by decide), dif_pos (show (0 : Fin S32768x875.rank) ∈ dot_S32768x875_S875x256_S32768x256_1_0_0_1_n_n.lhsNonContracting by decide)]
  rfl
theorem lhsR1_1 (i : S32768x256.Idx) (q : dot_S32768x875_S875x256_S32768x256_1_0_0_1_n_n.contr.Idx) : (dot_S32768x875_S875x256_S32768x256_1_0_0_1_n_n.lhsIdx i q 1).val = (q ⟨0, by decide⟩).val :=
  dot_S32768x875_S875x256_S32768x256_1_0_0_1_n_n.lhsIdx_val_of_single rfl i q
theorem rhsR1_0 (i : S32768x256.Idx) (q : dot_S32768x875_S875x256_S32768x256_1_0_0_1_n_n.contr.Idx) : (dot_S32768x875_S875x256_S32768x256_1_0_0_1_n_n.rhsIdx i q 0).val = (q ⟨0, by decide⟩).val :=
  dot_S32768x875_S875x256_S32768x256_1_0_0_1_n_n.rhsIdx_val_of_single rfl i q
theorem rhsR1_1 (i : S32768x256.Idx) (q : dot_S32768x875_S875x256_S32768x256_1_0_0_1_n_n.contr.Idx) : (dot_S32768x875_S875x256_S32768x256_1_0_0_1_n_n.rhsIdx i q 1).val = (i 1).val := by
  unfold DotDims.rhsIdx
  rw [dif_neg (show ¬(1 : Fin S875x256.rank) ∈ dot_S32768x875_S875x256_S32768x256_1_0_0_1_n_n.rhsBatch by decide), dif_pos (show (1 : Fin S875x256.rank) ∈ dot_S32768x875_S875x256_S32768x256_1_0_0_1_n_n.rhsNonContracting by decide)]
  rfl

/-- The host's product read at `(p, c)` is the sum over the contracted axis of the left operand's row `p` against
    the right operand's column `c`. -/
theorem dotR1_apply (a : FVec Ideal S32768x875 .f32) (b : FVec Ideal S875x256 .f32) (p : Fin 32768) (c : Fin 256) :
    Host.dotGeneral (F := Ideal) dot_S32768x875_S875x256_S32768x256_1_0_0_1_n_n none a b (ix2 p c) = ∑ l : Fin 875, a (ix2 p l) * b (ix2 l c) := by
  simp only [Host.dotGeneral]
  rw [Ideal.dotGeneral_apply, ← Equiv.sum_comp (ValueIdx.contrEquiv1 dot_S32768x875_S875x256_S32768x256_1_0_0_1_n_n 875 rfl rfl).symm]
  refine Finset.sum_congr rfl fun l _ => ?_
  have hk := ValueIdx.contrEquiv1_symm_val dot_S32768x875_S875x256_S32768x256_1_0_0_1_n_n 875 rfl rfl l
  have el : dot_S32768x875_S875x256_S32768x256_1_0_0_1_n_n.lhsIdx (ix2 p c) ((ValueIdx.contrEquiv1 dot_S32768x875_S875x256_S32768x256_1_0_0_1_n_n 875 rfl rfl).symm l) = ix2 p l := funext fun ax => Fin.ext (by
    match ax with
    | ⟨0, _⟩ => exact lhsR1_0 _ _
    | ⟨1, _⟩ => exact (lhsR1_1 _ _).trans hk)
  have er : dot_S32768x875_S875x256_S32768x256_1_0_0_1_n_n.rhsIdx (ix2 p c) ((ValueIdx.contrEquiv1 dot_S32768x875_S875x256_S32768x256_1_0_0_1_n_n 875 rfl rfl).symm l) = ix2 l c := funext fun ax => Fin.ext (by
    match ax with
    | ⟨0, _⟩ => exact (rhsR1_0 _ _).trans hk
    | ⟨1, _⟩ => exact rhsR1_1 _ _)
  rw [el, er]

theorem lhsR2_0 (i : S32768x64.Idx) (q : dot_S32768x256_S256x64_S32768x64_1_0_0_1_n_n.contr.Idx) : (dot_S32768x256_S256x64_S32768x64_1_0_0_1_n_n.lhsIdx i q 0).val = (i 0).val := by
  unfold DotDims.lhsIdx
  rw [dif_neg (show ¬(0 : Fin S32768x256.rank) ∈ dot_S32768x256_S256x64_S32768x64_1_0_0_1_n_n.lhsBatch by decide), dif_pos (show (0 : Fin S32768x256.rank) ∈ dot_S32768x256_S256x64_S32768x64_1_0_0_1_n_n.lhsNonContracting by decide)]
  rfl
theorem lhsR2_1 (i : S32768x64.Idx) (q : dot_S32768x256_S256x64_S32768x64_1_0_0_1_n_n.contr.Idx) : (dot_S32768x256_S256x64_S32768x64_1_0_0_1_n_n.lhsIdx i q 1).val = (q ⟨0, by decide⟩).val :=
  dot_S32768x256_S256x64_S32768x64_1_0_0_1_n_n.lhsIdx_val_of_single rfl i q
theorem rhsR2_0 (i : S32768x64.Idx) (q : dot_S32768x256_S256x64_S32768x64_1_0_0_1_n_n.contr.Idx) : (dot_S32768x256_S256x64_S32768x64_1_0_0_1_n_n.rhsIdx i q 0).val = (q ⟨0, by decide⟩).val :=
  dot_S32768x256_S256x64_S32768x64_1_0_0_1_n_n.rhsIdx_val_of_single rfl i q
theorem rhsR2_1 (i : S32768x64.Idx) (q : dot_S32768x256_S256x64_S32768x64_1_0_0_1_n_n.contr.Idx) : (dot_S32768x256_S256x64_S32768x64_1_0_0_1_n_n.rhsIdx i q 1).val = (i 1).val := by
  unfold DotDims.rhsIdx
  rw [dif_neg (show ¬(1 : Fin S256x64.rank) ∈ dot_S32768x256_S256x64_S32768x64_1_0_0_1_n_n.rhsBatch by decide), dif_pos (show (1 : Fin S256x64.rank) ∈ dot_S32768x256_S256x64_S32768x64_1_0_0_1_n_n.rhsNonContracting by decide)]
  rfl

/-- The host's product read at `(p, c)` is the sum over the contracted axis of the left operand's row `p` against
    the right operand's column `c`. -/
theorem dotR2_apply (a : FVec Ideal S32768x256 .f32) (b : FVec Ideal S256x64 .f32) (p : Fin 32768) (c : Fin 64) :
    Host.dotGeneral (F := Ideal) dot_S32768x256_S256x64_S32768x64_1_0_0_1_n_n none a b (ix2 p c) = ∑ l : Fin 256, a (ix2 p l) * b (ix2 l c) := by
  simp only [Host.dotGeneral]
  rw [Ideal.dotGeneral_apply, ← Equiv.sum_comp (ValueIdx.contrEquiv1 dot_S32768x256_S256x64_S32768x64_1_0_0_1_n_n 256 rfl rfl).symm]
  refine Finset.sum_congr rfl fun l _ => ?_
  have hk := ValueIdx.contrEquiv1_symm_val dot_S32768x256_S256x64_S32768x64_1_0_0_1_n_n 256 rfl rfl l
  have el : dot_S32768x256_S256x64_S32768x64_1_0_0_1_n_n.lhsIdx (ix2 p c) ((ValueIdx.contrEquiv1 dot_S32768x256_S256x64_S32768x64_1_0_0_1_n_n 256 rfl rfl).symm l) = ix2 p l := funext fun ax => Fin.ext (by
    match ax with
    | ⟨0, _⟩ => exact lhsR2_0 _ _
    | ⟨1, _⟩ => exact (lhsR2_1 _ _).trans hk)
  have er : dot_S32768x256_S256x64_S32768x64_1_0_0_1_n_n.rhsIdx (ix2 p c) ((ValueIdx.contrEquiv1 dot_S32768x256_S256x64_S32768x64_1_0_0_1_n_n 256 rfl rfl).symm l) = ix2 l c := funext fun ax => Fin.ext (by
    match ax with
    | ⟨0, _⟩ => exact (rhsR2_0 _ _).trans hk
    | ⟨1, _⟩ => exact rhsR2_1 _ _)
  rw [el, er]

/-! ## A bias broadcast over the rows -/

/-- A vector `[n]` broadcast to one row `[1, n]` and then over `N` rows reads, at `(p, k)`, the vector at `k`. -/
theorem row_broadcast_apply {α : Type} {N n : ℕ} (hn : n ≠ 1) (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![N, n]⟩ ![0, 1]) (p : Fin N) (k : Fin n) :
    broadcastInDim ⟨2, ![N, n]⟩ ![0, 1] h2 (broadcastInDim ⟨2, ![1, n]⟩ ![1] h1 x) (ix2 p k) = x (ix1 k) :=
  (broadcastInDim_apply _ h2 _ (ix2 p k) (ix2 (0 : Fin 1) k) (fun a => match a with
    | ⟨0, _⟩ => by show 0 = if (1 : Nat) = 1 then 0 else p.val; rw [if_pos rfl]
    | ⟨1, _⟩ => by show k.val = if n = 1 then 0 else k.val; rw [if_neg hn])).trans
  (broadcastInDim_apply _ h1 x (ix2 (0 : Fin 1) k) (ix1 k) (fun a => match a with
    | ⟨0, _⟩ => by show k.val = if n = 1 then 0 else k.val; rw [if_neg hn]))

/-! ## The last ten operations are the mixer -/

/-- On the extended reals the reference's last ten operations compute the mixer's result. -/
theorem mixerTail_eq (X : (⟨S32768x875, .f32⟩ : BufTy).Contents (Elt Ideal)) (w1 : (⟨S875x256, .f32⟩ : BufTy).Contents (Elt Ideal))
    (b1 : (⟨S256, .f32⟩ : BufTy).Contents (Elt Ideal)) (w2 : (⟨S256x64, .f32⟩ : BufTy).Contents (Elt Ideal))
    (b2 : (⟨S64, .f32⟩ : BufTy).Contents (Elt Ideal)) :
    mixerTail (F := Ideal) X w1 b1 w2 b2 = Cert.Mixer.result (N := 32768) X w1 b1 w2 b2 := by
  funext i
  obtain ⟨p, q, rfl⟩ : ∃ (p : Fin 32768) (q : Fin 64), i = ix2 p q := ⟨i 0, i 1, eq_ix2 i⟩
  rw [Cert.Mixer.result_apply]
  unfold mixerTail Cert.Mixer.entry Cert.Mixer.hidden
  refine congrArg₂ (· + ·) ?_ (row_broadcast_apply (by decide) b2 _ _ p q)
  refine (dotR2_apply _ _ p q).trans (Finset.sum_congr rfl fun k _ => congrArg₂ (· * ·) ?_ rfl)
  exact congrArg₂ max (congrArg₂ (· + ·) (dotR1_apply X w1 p k) (row_broadcast_apply (by decide) b1 _ _ p k)) Ideal.ofBits_zero_f32

end Cert.ReferenceIdeal.RefValue

end
-- ==== Proof.LibNaryThree.lean ====
/-
  General facts about a line of host operations, for reading what it leaves in a buffer.

  * A host operation over a literal family of THREE operand buffers (a concatenation of three arrays), read at its
    result buffer, is the operation's function applied to the three operands' contents, each read AT ITS OWN
    BUFFER (the general statement reads operand `k` at the buffer `xs k`, under a binder).
  * The buffers' contents after two lines run one after the other are the second line's over the first line's.
  * Two or three arrays joined along an axis, with the operands as plain arguments: `concatenate` takes a list of
    shape–array pairs, and an array inside such a pair can only be rewritten when its type is literally the
    pair's; as a plain argument it can be rewritten like any other operand.
  * One simplification pass that evaluates a literal line of host operations at a literal buffer down to a term of
    the launch contents, two-array joins included; a three-array join is read by a lemma stated for the program's
    own operation over `cat3`, passed to the pass.
-/
import Idealize.ShloMosaic.Lib.StableHlo.Run

namespace Cert.Lib

open Idealize.ShloMosaic Idealize.ShloMosaic.StableHlo Idealize.SL.Sem

variable {τ : Topo} {sig : RefSig} {Val : EltTy → Type}

/-- A three-operand host operation's result, read at its result buffer, is its function of the three operands'
    contents, each read at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplification pass. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Two lines of host operations run one after the other: the second line's results over the first line's. -/
theorem after_append (l₁ l₂ : List (HloOp τ sig Val)) (V : Valuation τ sig Val) :
    after (l₁ ++ l₂) V = after l₂ (after l₁ V) := by
  induction l₁ generalizing V with
  | nil => rfl
  | cons op l ih => exact ih _

/-- Two arrays joined along an axis, the operands as plain arguments (the library's `concatenate` takes a list of
    shape–array pairs, whose second components no rewriting pass can enter once their types are only definitionally
    the stated ones). -/
def cat2 {α : Type} (S : Shape) (d : Fin S.rank) (S1 S2 : Shape) (h : Shape.Concatenates [S1, S2] S d)
    (a : S1.Idx → α) (b : S2.Idx → α) : S.Idx → α := concatenate S d [⟨S1, a⟩, ⟨S2, b⟩] h

theorem cat2_eq {α : Type} (S : Shape) (d : Fin S.rank) (S1 S2 : Shape) (h : Shape.Concatenates [S1, S2] S d)
    (a : S1.Idx → α) (b : S2.Idx → α) : concatenate S d [⟨S1, a⟩, ⟨S2, b⟩] h = cat2 S d S1 S2 h a b := rfl

/-- Three arrays joined along an axis, the operands as plain arguments. -/
def cat3 {α : Type} (S : Shape) (d : Fin S.rank) (S1 S2 S3 : Shape) (h : Shape.Concatenates [S1, S2, S3] S d)
    (a : S1.Idx → α) (b : S2.Idx → α) (c : S3.Idx → α) : S.Idx → α := concatenate S d [⟨S1, a⟩, ⟨S2, b⟩, ⟨S3, c⟩] h

/-- Evaluates `after ops V b` for a literal line `ops` and a literal buffer `b` in one simplification pass. -/
macro "eval_after" "[" extra:Lean.Parser.Tactic.simpLemma,* "]" : tactic =>
  `(tactic| (simp (disch := decide) only [$extra,*, after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne', Cert.Lib.cat2_eq]))

end Cert.Lib
-- ==== Proof.PatchesAgree.lean ====
/-
  The two programs build the same patch matrix.

  The kernel's @main and the reference's @main begin with the same 103 host operations — the pixel indices of
  the query positions, the zero padding of the features, the gather of 25 neighbours per query with its
  out-of-range fill, the coordinate differences, their norms and quotients, the concatenation and the flattening
  into a [32768, 875] matrix —, line for line, over buffers of their own. Evaluating the line at the matrix's buffer
  gives, in each program, one term of the features and the positions as launched; the two terms are one. The
  reference then applies its last ten operations to that matrix and the weights and biases as launched.
  The matrix is named only as SOME function of the features and the positions: nothing below needs more of it.
-/
import proofs.«146009_j16913581211931_1_alg».proof.Proof.IdealValue
import proofs.«146009_j16913581211931_1_alg».proof.Proof.RefRun
import proofs.«146009_j16913581211931_1_alg».proof.Proof.LibNaryThree
import Idealize.ShloMosaic.PureOps.Ideal

noncomputable section

namespace Cert.Proof.Bridge

open Idealize.ShloMosaic Idealize.ShloMosaic.TcCoe Idealize.SL.Sem Idealize.ShloMosaic.StableHlo Cert.Lib

/-- The three-operand concatenation of `Cert.KernelIdeal`, read at its result buffer: the join of what the three operand
    buffers hold. -/
theorem joinK (F : Valuation Cert.KernelIdeal.τ Cert.KernelIdeal.sig (Elt Ideal)) :
    (StableHlo.nary (τ := Cert.KernelIdeal.τ) ![Cert.KernelIdeal.main_v47, Cert.KernelIdeal.main_v64, Cert.KernelIdeal.main_v60] Cert.KernelIdeal.main_v65
        (fun u => concatenate Cert.KernelIdeal.S32768x5x5x35 3 [⟨Cert.KernelIdeal.S32768x5x5x32, u 0⟩, ⟨Cert.KernelIdeal.S32768x5x5x2, u 1⟩, ⟨Cert.KernelIdeal.S32768x5x5x1, u 2⟩]
          Cert.KernelIdeal.Facts₀.concatenates_S32768x5x5x32_S32768x5x5x2_S32768x5x5x1_S32768x5x5x35_d3)).result F (no_index (Proc.devRef .tc Cert.KernelIdeal.main_v65))
      = cat3 Cert.KernelIdeal.S32768x5x5x35 3 Cert.KernelIdeal.S32768x5x5x32 Cert.KernelIdeal.S32768x5x5x2 Cert.KernelIdeal.S32768x5x5x1 Cert.KernelIdeal.Facts₀.concatenates_S32768x5x5x32_S32768x5x5x2_S32768x5x5x1_S32768x5x5x35_d3
          (F (Proc.devRef .tc Cert.KernelIdeal.main_v47)) (F (Proc.devRef .tc Cert.KernelIdeal.main_v64)) (F (Proc.devRef .tc Cert.KernelIdeal.main_v60)) := by
  rw [nary3_result]; rfl

/-- The three-operand concatenation of `Cert.ReferenceIdeal`, read at its result buffer: the join of what the three operand
    buffers hold. -/
theorem joinR (F : Valuation Cert.ReferenceIdeal.τ Cert.ReferenceIdeal.sig (Elt Ideal)) :
    (StableHlo.nary (τ := Cert.ReferenceIdeal.τ) ![Cert.ReferenceIdeal.main_v47, Cert.ReferenceIdeal.main_v64, Cert.ReferenceIdeal.main_v60] Cert.ReferenceIdeal.main_v65
        (fun u => concatenate Cert.ReferenceIdeal.S32768x5x5x35 3 [⟨Cert.ReferenceIdeal.S32768x5x5x32, u 0⟩, ⟨Cert.ReferenceIdeal.S32768x5x5x2, u 1⟩, ⟨Cert.ReferenceIdeal.S32768x5x5x1, u 2⟩]
          Cert.ReferenceIdeal.Facts₀.concatenates_S32768x5x5x32_S32768x5x5x2_S32768x5x5x1_S32768x5x5x35_d3)).result F (no_index (Proc.devRef .tc Cert.ReferenceIdeal.main_v65))
      = cat3 Cert.ReferenceIdeal.S32768x5x5x35 3 Cert.ReferenceIdeal.S32768x5x5x32 Cert.ReferenceIdeal.S32768x5x5x2 Cert.ReferenceIdeal.S32768x5x5x1 Cert.ReferenceIdeal.Facts₀.concatenates_S32768x5x5x32_S32768x5x5x2_S32768x5x5x1_S32768x5x5x35_d3
          (F (Proc.devRef .tc Cert.ReferenceIdeal.main_v47)) (F (Proc.devRef .tc Cert.ReferenceIdeal.main_v64)) (F (Proc.devRef .tc Cert.ReferenceIdeal.main_v60)) := by
  rw [nary3_result]; rfl

set_option maxRecDepth 1000000 in
set_option maxHeartbeats 80000000 in
/-- On each device there is one function `X` of the features and the positions such that the kernel's region finds
    its patch matrix at `X` of them, and the reference's result is its last ten operations applied to `X` of them. -/
theorem patches_agree (c : Dev Cert.KernelIdeal.nD) :
    ∃ X : (Cert.KernelIdeal.S8x256x256x32.Idx → EReal) → (Cert.KernelIdeal.S8x4096x2.Idx → EReal) → (Cert.KernelIdeal.S32768x875.Idx → EReal),
      (∀ (m : (ℓ : Loc Cert.KernelIdeal.nD Cert.KernelIdeal.τ Cert.KernelIdeal.sig) → Buf (Elt Ideal) ℓ),
        (Cert.KernelIdeal.Hand.V m c Cert.KernelIdeal.main_v66 : Cert.KernelIdeal.S32768x875.Idx → EReal)
          = X (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      ∧ (∀ (m' : (ℓ : Loc Cert.ReferenceIdeal.nD Cert.ReferenceIdeal.τ Cert.ReferenceIdeal.sig) → Buf (Elt Ideal) ℓ),
        after (Cert.ReferenceIdeal.ValueP.ops (F := Ideal)) (launchContents m' c) (Proc.devRef .tc Cert.ReferenceIdeal.main_v75)
          = Cert.ReferenceIdeal.RefValue.mixerTail (F := Ideal)
              (X (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
              (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))) := by
  refine ⟨?X, fun m => ?hK, fun m' => ?hR⟩
  case hK =>
    dsimp only [Cert.KernelIdeal.Hand.V]
    simp only [Cert.KernelIdeal.Hand.prefixOps, Cert.KernelIdeal.Gen.hostOps0, Cert.KernelIdeal.Gen.hostOps0_1, Cert.KernelIdeal.Gen.hostOps0_2, Cert.KernelIdeal.Gen.hostOps0_3,
      Cert.KernelIdeal.Gen.hostOps0_4, Cert.KernelIdeal.Gen.hostOps0_5, Cert.KernelIdeal.Gen.hostOps0_6,
      List.flatten_cons, List.flatten_nil, List.append_nil, List.cons_append, List.nil_append]
    eval_after [joinK]
    generalize m ((c.tc : Thread Cert.KernelIdeal.nD Cert.KernelIdeal.τ).loc Cert.KernelIdeal.main_arg0) = a0
    generalize m ((c.tc : Thread Cert.KernelIdeal.nD Cert.KernelIdeal.τ).loc Cert.KernelIdeal.main_arg1) = a1
    exact rfl
  case hR =>
    unfold Cert.ReferenceIdeal.RefValue.mixerTail
    eval_after [joinR]
    rfl

/-- The patch matrix both programs build, as a function of the features and the positions. -/
def patches (c : Dev Cert.KernelIdeal.nD) :
    (Cert.KernelIdeal.S8x256x256x32.Idx → EReal) → (Cert.KernelIdeal.S8x4096x2.Idx → EReal) → (Cert.KernelIdeal.S32768x875.Idx → EReal) :=
  Classical.choose (patches_agree c)

/-- The kernel's region finds its patch matrix at `patches` of the features and the positions as launched. -/
theorem patches_kernel (c : Dev Cert.KernelIdeal.nD) (m : (ℓ : Loc Cert.KernelIdeal.nD Cert.KernelIdeal.τ Cert.KernelIdeal.sig) → Buf (Elt Ideal) ℓ) :
    (Cert.KernelIdeal.Hand.V m c Cert.KernelIdeal.main_v66 : Cert.KernelIdeal.S32768x875.Idx → EReal)
      = patches c (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
  (Classical.choose_spec (patches_agree c)).1 m

/-- The reference's result is its last ten operations applied to `patches` of the features and the positions. -/
theorem patches_reference (c : Dev Cert.KernelIdeal.nD) (m' : (ℓ : Loc Cert.ReferenceIdeal.nD Cert.ReferenceIdeal.τ Cert.ReferenceIdeal.sig) → Buf (Elt Ideal) ℓ) :
    after (Cert.ReferenceIdeal.ValueP.ops (F := Ideal)) (launchContents m' c) (Proc.devRef .tc Cert.ReferenceIdeal.main_v75)
      = Cert.ReferenceIdeal.RefValue.mixerTail (F := Ideal)
          (patches c (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) :=
  (Classical.choose_spec (patches_agree c)).2 m'

end Cert.Proof.Bridge

end
-- ==== Proof.lean ====
/-
  The certificate of the local-mixer kernel against its reference.

  Both programs build, by the same host operations, a [32768, 875] matrix X of flattened 5×5 patches — gathered
  feature rows, normalized offset vectors and their norms — and apply to it  relu(X·W1 + b1)·W2 + b2.
  The kernel does the second part in one pallas_call over sixteen blocks of 2048 rows, converting the operands of
  each product to bf16; the reference does it with two host products. On the extended reals a change of float
  format is the identity, a product into a zero accumulator is the plain sum over the contracted axis, as the host's
  product is, and a bias broadcast over the rows reads the bias at the column whichever way it is reshaped; a row of
  the result depends on the same row of X only, so the sixteen row blocks the kernel writes are the blocks of the one
  array the reference computes. No law of arithmetic beyond that is used, so finiteness of the inputs is never needed.

  Frames: the kernel's @main (at the word level and idealized) is its host operations followed by the one region,
  whose body loads five whole blocks and stores one; the reference's @main is a straight line of host operations; no
  operation and no write-back touches an argument array. The idealization rewrote nothing, so there is nothing to
  preserve.
-/
import proofs.«146009_j16913581211931_1_alg».proof.Defs
import proofs.«146009_j16913581211931_1_alg».proof.Proof.Gen.Kernel
import proofs.«146009_j16913581211931_1_alg».proof.Proof.Gen.KernelIdeal
import proofs.«146009_j16913581211931_1_alg».proof.Proof.Gen.ReferenceIdeal
import proofs.«146009_j16913581211931_1_alg».proof.Proof.Gen.Pre_finite_inputs
import proofs.«146009_j16913581211931_1_alg».proof.Proof.BitsFrame
import proofs.«146009_j16913581211931_1_alg».proof.Proof.IdealFrame
import proofs.«146009_j16913581211931_1_alg».proof.Proof.IdealValue
import proofs.«146009_j16913581211931_1_alg».proof.Proof.RefRun
import proofs.«146009_j16913581211931_1_alg».proof.Proof.PatchesAgree
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run_kept (F := Ideal) m ρ)

/-- The idealization rewrote no operation. -/
theorem preserves : Cert.preserves_Kernel_KernelIdeal := trivial

/-- From memories agreeing on the arguments both idealized programs end with the mixer's result for the one patch
    matrix both build: the kernel's sixteen written-back blocks cover it, the reference's last ten operations compute it. -/
theorem algebraic : Cert.algebraic_KernelIdeal_ReferenceIdeal := by
  intro m ρ m' ρ' _ hagree
  refine ⟨fun c => Cert.Mixer.result (N := 32768)
      (Cert.Proof.Bridge.patches c (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, (h c).2⟩) (Cert.KernelIdeal.HandValue.run m ρ)
    rw [(h c).1, Cert.Proof.Bridge.patches_kernel c m]
  · refine (θ_run Cert.ReferenceIdeal.defs _ _).mono (fun r h c => ⟨?_, (h c).2⟩)
      (Cert.ReferenceIdeal.RefValue.run_kept (F := Ideal) m' ρ')
    rw [(h c).1, Cert.Proof.Bridge.patches_reference c m', Cert.ReferenceIdeal.RefValue.mixerTail_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
